-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part7 {F : FTy → Type} [FloatOps F] (main_v118 : IVec S_ 1) (main_v119 : FVec F S2048 .f32) : IVec S_ 1 :=
  let main_cst_46 : FVec F S_ .f32 := constant S_ .f32 0x7F800000#32
  let main_v120 : FVec F S2048 .f32 := broadcastInDim S2048 ![] bcast_S_S2048 main_cst_46
  let main_v121 : IVec S2048 1 := cmpf .olt main_v119 main_v120
  let main_c_47 : IVec S_ 1 := constantI S_ 1 1#1
  let main_v122 : IVec S_ 1 := (fun x v => Host.reduce IntOp.andi x v reducesTo_S2048_S_d0 h_S_) main_v121 main_c_47
  let main_v123 : IVec S_ 1 := andi main_v118 main_v122
  main_v123

def fn_part6 {F : FTy → Type} [FloatOps F] (main_arg21 : FVec F S2048x2048 .f32) (main_arg22 : FVec F S2048 .f32) (main_arg23 : FVec F S2048x2048 .f32) (main_arg24 : FVec F S2048 .f32) (main_v98 : IVec S_ 1) (main_v101 : IVec S2048 1) (main_c_39 : IVec S_ 1) : IVec S_ 1 :=
  let main_v102 : IVec S_ 1 := (fun x v => Host.reduce IntOp.andi x v reducesTo_S2048_S_d0 h_S_) main_v101 main_c_39
  let main_v103 : IVec S_ 1 := andi main_v98 main_v102
  let main_v104 : FVec F S2048x2048 .f32 := Host.absf main_arg21
  let main_cst_40 : FVec F S_ .f32 := constant S_ .f32 0x7F800000#32
  let main_v105 : FVec F S2048x2048 .f32 := broadcastInDim S2048x2048 ![] bcast_S_S2048x2048 main_cst_40
  let main_v106 : IVec S2048x2048 1 := cmpf .olt main_v104 main_v105
  let main_c_41 : IVec S_ 1 := constantI S_ 1 1#1
  let main_v107 : IVec S_ 1 := (fun x v => Host.reduce IntOp.andi x v reducesTo_S2048x2048_S_d0_1 h_S_) main_v106 main_c_41
  let main_v108 : IVec S_ 1 := andi main_v103 main_v107
  let main_v109 : FVec F S2048 .f32 := Host.absf main_arg22
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  let main_v114 : FVec F S2048x2048 .f32 := Host.absf main_arg23
  let main_cst_44 : FVec F S_ .f32 := constant S_ .f32 0x7F800000#32
  let main_v115 : FVec F S2048x2048 .f32 := broadcastInDim S2048x2048 ![] bcast_S_S2048x2048 main_cst_44
  let main_v116 : IVec S2048x2048 1 := cmpf .olt main_v114 main_v115
  let main_c_45 : IVec S_ 1 := constantI S_ 1 1#1
  let main_v117 : IVec S_ 1 := (fun x v => Host.reduce IntOp.andi x v reducesTo_S2048x2048_S_d0_1 h_S_) main_v116 main_c_45
  let main_v118 : IVec S_ 1 := andi main_v113 main_v117
  let main_v119 : FVec F S2048 .f32 := Host.absf main_arg24
  fn_part7 (F := F) main_v118 main_v119

def fn_part5 {F : FTy → Type} [FloatOps F] (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S2048x2048 .f32 := Host.absf main_arg19
  let main_cst_36 : FVec F S_ .f32 := constant S_ .f32 0x7F800000#32
  let main_v95 : FVec F S2048x2048 .f32 := broadcastInDim S2048x2048 ![] bcast_S_S2048x2048 main_cst_36
  let main_v96 : IVec S2048x2048 1 := cmpf .olt main_v94 main_v95
  let main_c_37 : IVec S_ 1 := constantI S_ 1 1#1
  let main_v97 : IVec S_ 1 := (fun x v => Host.reduce IntOp.andi x v reducesTo_S2048x2048_S_d0_1 h_S_) main_v96 main_c_37
  let main_v98 : IVec S_ 1 := andi main_v93 main_v97
  let main_v99 : FVec F S2048 .f32 := Host.absf main_arg20
  let main_cst_38 : FVec F S_ .f32 := constant S_ .f32 0x7F800000#32
  let main_v100 : FVec F S2048 .f32 := broadcastInDim S2048 ![] bcast_S_S2048 main_cst_38
  let main_v101 : IVec S2048 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8192x2048 .f32) (main_arg1 : FVec F S8192x2048 .f32) (main_arg2 : FVec F S8192x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_arg19 : FVec F S2048x2048 .f32) (main_arg20 : FVec F S2048 .f32) (main_arg21 : FVec F S2048x2048 .f32) (main_arg22 : FVec F S2048 .f32) (main_arg23 : FVec F S2048x2048 .f32) (main_arg24 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S2048x256 : Shape := ⟨2, ![2048, 256]⟩
abbrev S1x256 : Shape := ⟨2, ![1, 256]⟩
abbrev S512x256 : Shape := ⟨2, ![512, 256]⟩

abbrev nBuf : Space → Nat
  | .hbm => 62
  | .vmem => 51
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S2048x2048, .f32⟩
  | .hbm, ⟨22, _⟩ => ⟨S2048, .f32⟩
  | .hbm, ⟨23, _⟩ => ⟨S2048x2048, .f32⟩
  | .hbm, ⟨24, _⟩ => ⟨S2048, .f32⟩
  | .hbm, ⟨25, _⟩ => ⟨S2048x2048, .f32⟩
  | .hbm, ⟨26, _⟩ => ⟨S2048x2048, .bf16⟩
  | .hbm, ⟨27, _⟩ => ⟨S2048x2048, .f32⟩
  | .hbm, ⟨28, _⟩ => ⟨S2048x2048, .bf16⟩
  | .hbm, ⟨29, _⟩ => ⟨S2048x2048, .f32⟩
  | .hbm, ⟨30, _⟩ => ⟨S2048x2048, .bf16⟩
  | .hbm, ⟨31, _⟩ => ⟨S2048x2048, .f32⟩
  | .hbm, ⟨32, _⟩ => ⟨S2048x2048, .bf16⟩
  | .hbm, ⟨33, _⟩ => ⟨S2048x2048, .f32⟩
  | .hbm, ⟨34, _⟩ => ⟨S2048x2048, .bf16⟩
  | .hbm, ⟨35, _⟩ => ⟨S2048x2048, .f32⟩
  | .hbm, ⟨36, _⟩ => ⟨S2048x2048, .bf16⟩
  | .hbm, ⟨37, _⟩ => ⟨S2048x2048, .f32⟩
  | .hbm, ⟨38, _⟩ => ⟨S2048x2048, .bf16⟩
  | .hbm, ⟨39, _⟩ => ⟨S2048x2048, .f32⟩
  | .hbm, ⟨40, _⟩ => ⟨S2048x2048, .bf16⟩
  | .hbm, ⟨41, _⟩ => ⟨S2048x2048, .f32⟩
  | .hbm, ⟨42, _⟩ => ⟨S2048x2048, .bf16⟩
  | .hbm, ⟨43, _⟩ => ⟨S2048x2048, .f32⟩
  | .hbm, ⟨44, _⟩ => ⟨S2048x2048, .bf16⟩
  | .hbm, ⟨45, _⟩ => ⟨S2048x2048, .f32⟩
  | .hbm, ⟨46, _⟩ => ⟨S2048x2048, .bf16⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S8192x2048, .bf16⟩
  | .hbm, ⟨59, _⟩ => ⟨S8192x2048, .bf16⟩
  | .hbm, ⟨60, _⟩ => ⟨S8192x2048, .f32⟩
  | .hbm, ⟨61, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S2048x256, .bf16⟩
  | .local _ .vmem, ⟨4, _⟩ => ⟨S2048x256, .bf16⟩
  | .local _ .vmem, ⟨5, _⟩ => ⟨S1x256, .f32⟩
  | .local _ .vmem, ⟨6, _⟩ => ⟨S1x256, .f32⟩
  | .local _ .vmem, ⟨7, _⟩ => ⟨S2048x256, .bf16⟩
  | .local _ .vmem, ⟨8, _⟩ => ⟨S2048x256, .bf16⟩
  | .local _ .vmem, ⟨9, _⟩ => ⟨S1x256, .f32⟩
  | .local _ .vmem, ⟨10, _⟩ => ⟨S1x256, .f32⟩
  | .local _ .vmem, ⟨11, _⟩ => ⟨S2048x256, .bf16⟩
  | .local _ .vmem, ⟨12, _⟩ => ⟨S2048x256, .bf16⟩
  | .local _ .vmem, ⟨13, _⟩ => ⟨S1x256, .f32⟩
  | .local _ .vmem, ⟨14, _⟩ => ⟨S1x256, .f32⟩
  | .local _ .vmem, ⟨15, _⟩ => ⟨S2048x256, .bf16⟩
  | .local _ .vmem, ⟨16, _⟩ => ⟨S2048x256, .bf16⟩
  | .local _ .vmem, ⟨17, _⟩ => ⟨S1x256, .f32⟩
  | .local _ .vmem, ⟨18, _⟩ => ⟨S1x256, .f32⟩
  | .local _ .vmem, ⟨19, _⟩ => ⟨S2048x256, .bf16⟩
  | .local _ .vmem, ⟨20, _⟩ => ⟨S2048x256, .bf16⟩
  | .local _ .vmem, ⟨21, _⟩ => ⟨S1x256, .f32⟩
  | .local _ .vmem, ⟨22, _⟩ => ⟨S1x256, .f32⟩
  | .local _ .vmem, ⟨23, _⟩ => ⟨S2048x256, .bf16⟩
  | .local _ .vmem, ⟨24, _⟩ => ⟨S2048x256, .bf16⟩
  | .local _ .vmem, ⟨25, _⟩ => ⟨S1x256, .f32⟩
  | .local _ .vmem, ⟨26, _⟩ => ⟨S1x256, .f32⟩
  | .local _ .vmem, ⟨27, _⟩ => ⟨S2048x256, .bf16⟩
  | .local _ .vmem, ⟨28, _⟩ => ⟨S2048x256, .bf16⟩
  | .local _ .vmem, ⟨29, _⟩ => ⟨S1x256, .f32⟩
  | .local _ .vmem, ⟨30, _⟩ => ⟨S1x256, .f32⟩
  | .local _ .vmem, ⟨31, _⟩ => ⟨S2048x256, .bf16⟩
  | .local _ .vmem, ⟨32, _⟩ => ⟨S2048x256, .bf16⟩
  | .local _ .vmem, ⟨33, _⟩ => ⟨S1x256, .f32⟩
  | .local _ .vmem, ⟨34, _⟩ => ⟨S1x256, .f32⟩
  | .local _ .vmem, ⟨35, _⟩ => ⟨S2048x256, .bf16⟩
  | .local _ .vmem, ⟨36, _⟩ => ⟨S2048x256, .bf16⟩
  | .local _ .vmem, ⟨37, _⟩ => ⟨S1x256, .f32⟩
  | .local _ .vmem, ⟨38, _⟩ => ⟨S1x256, .f32⟩
  | .local _ .vmem, ⟨39, _⟩ => ⟨S2048x256, .bf16⟩
  | .local _ .vmem, ⟨40, _⟩ => ⟨S2048x256, .bf16⟩
  | .local _ .vmem, ⟨41, _⟩ => ⟨S1x256, .f32⟩
  | .local _ .vmem, ⟨42, _⟩ => ⟨S1x256, .f32⟩
  | .local _ .vmem, ⟨43, _⟩ => ⟨S2048x256, .bf16⟩
  | .local _ .vmem, ⟨44, _⟩ => ⟨S2048x256, .bf16⟩
  | .local _ .vmem, ⟨45, _⟩ => ⟨S1x256, .f32⟩
  | .local _ .vmem, ⟨46, _⟩ => ⟨S1x256, .f32⟩
  | .local _ .vmem, ⟨47, _⟩ => ⟨S512x256, .f32⟩
  | .local _ .vmem, ⟨48, _⟩ => ⟨S512x256, .f32⟩
  | .local _ .vmem, ⟨49, _⟩ => ⟨S512x256, .f32⟩
  | .local _ .vmem, ⟨50, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35_0 : Ref sig .tc := ⟨.hbm, 60, rfl⟩
abbrev main_v35_1 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_stg23_0 : Ref sig .tc := ⟨.vmem, 43, rfl⟩
abbrev cc0_stg23_1 : Ref sig .tc := ⟨.vmem, 44, rfl⟩
abbrev cc0_stg24_0 : Ref sig .tc := ⟨.vmem, 45, rfl⟩
abbrev cc0_stg24_1 : Ref sig .tc := ⟨.vmem, 46, rfl⟩
abbrev cc0_stg25_0 : Ref sig .tc := ⟨.vmem, 47, rfl⟩
abbrev cc0_stg25_1 : Ref sig .tc := ⟨.vmem, 48, rfl⟩
abbrev cc0_stg26_0 : Ref sig .tc := ⟨.vmem, 49, rfl⟩
abbrev cc0_stg26_1 : Ref sig .tc := ⟨.vmem, 50, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42
abbrev cc0_sem23_0 : DmaSem sig := 43
abbrev cc0_sem23_1 : DmaSem sig := 44
abbrev cc0_sem24_0 : DmaSem sig := 45
abbrev cc0_sem24_1 : DmaSem sig := 46
abbrev cc0_sem25_0 : DmaSem sig := 47
abbrev cc0_sem25_1 : DmaSem sig := 48
abbrev cc0_sem26_0 : DmaSem sig := 49
abbrev cc0_sem26_1 : DmaSem sig := 50

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v97 : BitVec 32 := Scalar.muli arg1 c256_i32
  v97
def k0_off1 (i : grid0.Coords) : Fin 2 → Nat :=
  let c0_59 : Index := 0#32
  let arg1 : BitVec 32 := BitVec.ofNat 32 (i 1).val
  let c256_i32 : BitVec 32 := 256#32
  let v97 : BitVec 32 := Scalar.muli arg1 c256_i32
  let v98 : BitVec 32 := v97
  let v99 : Index := Scalar.indexCast v98
  ![0, v99.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S2048x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S2048x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S2048x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![false, true]

abbrev stage0_21 : Fin 2 → Memref sig .tc .vmem S2048x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![false, true]

abbrev stage0_22 : Fin 2 → Memref sig .tc .vmem S1x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![false, true]

abbrev stage0_23 : Fin 2 → Memref sig .tc .vmem S2048x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![false, true]

abbrev stage0_24 : Fin 2 → Memref sig .tc .vmem S1x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![false, true]

abbrev stage0_25 : Fin 2 → Memref sig .tc .vmem S512x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S512x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

class Facts₀ : Prop where
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  h_S512x256 : 0 < S512x256.numel
  inb_S512x256_S512x256_0_0 : ∀ a, (![0, 0] : Fin 2 → Nat) a + S512x256.size a ≤ S512x256.size a
  dot_S512x2048_S2048x256_S512x256_1_0_0_1_n_n_wf : DotDims.WF S512x2048 S2048x256 S512x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S512x256.size a ≤ S512x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .bf16 = 32 ∨ (Rect.block (s := S2048x2048) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S2048x2048.size a
  hwx0_11 : ∀ i : grid0.Coords, EltTy.bits .bf16 = 32 ∨ (Rect.block (s := S2048x2048) S2048x256.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x256.size a ≤ S2048x2048.size a
  hwx0_13 : ∀ i : grid0.Coords, EltTy.bits .bf16 = 32 ∨ (Rect.block (s := S2048x2048) S2048x256.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x256.size a ≤ S2048x2048.size a
  hwx0_15 : ∀ i : grid0.Coords, EltTy.bits .bf16 = 32 ∨ (Rect.block (s := S2048x2048) S2048x256.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x2048.size a
  hwx0_16 : ∀ i : grid0.Coords, EltTy.bits .f32 = 32 ∨ (Rect.block (s := S1x2048) S1x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x256.size a ≤ S2048x2048.size a
  hwx0_17 : ∀ i : grid0.Coords, EltTy.bits .bf16 = 32 ∨ (Rect.block (s := S2048x2048) S2048x256.size (cc0_transform_17 i) (hinb0_17 i)).WholeWords (EltTy.packing .bf16)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x2048.size a
  hwx0_18 : ∀ i : grid0.Coords, EltTy.bits .f32 = 32 ∨ (Rect.block (s := S1x2048) S1x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2048x256.size a ≤ S2048x2048.size a
  hwx0_19 : ∀ i : grid0.Coords, EltTy.bits .bf16 = 32 ∨ (Rect.block (s := S2048x2048) S2048x256.size (cc0_transform_19 i) (hinb0_19 i)).WholeWords (EltTy.packing .bf16)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x256.size a ≤ S1x2048.size a
  hwx0_20 : ∀ i : grid0.Coords, EltTy.bits .f32 = 32 ∨ (Rect.block (s := S1x2048) S1x256.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x256.size a ≤ S2048x2048.size a
  hwx0_21 : ∀ i : grid0.Coords, EltTy.bits .bf16 = 32 ∨ (Rect.block (s := S2048x2048) S2048x256.size (cc0_transform_21 i) (hinb0_21 i)).WholeWords (EltTy.packing .bf16)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x256.size a ≤ S1x2048.size a
  hwx0_22 : ∀ i : grid0.Coords, EltTy.bits .f32 = 32 ∨ (Rect.block (s := S1x2048) S1x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2048x256.size a ≤ S2048x2048.size a
  hwx0_23 : ∀ i : grid0.Coords, EltTy.bits .bf16 = 32 ∨ (Rect.block (s := S2048x2048) S2048x256.size (cc0_transform_23 i) (hinb0_23 i)).WholeWords (EltTy.packing .bf16)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1x256.size a ≤ S1x2048.size a
  hwx0_24 : ∀ i : grid0.Coords, EltTy.bits .f32 = 32 ∨ (Rect.block (s := S1x2048) S1x256.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S512x256.size a ≤ S8192x2048.size a
  hwx0_25 : ∀ i : grid0.Coords, EltTy.bits .f32 = 32 ∨ (Rect.block (s := S8192x2048) S512x256.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S512x256.size a ≤ S8192x2048.size a
  hwx0_26 : ∀ i : grid0.Coords, EltTy.bits .f32 = 32 ∨ (Rect.block (s := S8192x2048) S512x256.size (cc0_transform_26 i) (hinb0_26 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v33) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v34) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9) S2048x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v26) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v11) S2048x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v27) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v13) S2048x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v28) S1x256.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v15) S2048x256.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v29) S1x256.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v17) S2048x256.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v30) S1x256.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_v19) S2048x256.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_v31) S1x256.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_v21) S2048x256.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_v32) S1x256.size cc0_transform_24 reads0_24 false false 2 stage0_24 sem0_24
    hrank0 hreads0_24 hinb0_24 nbuf0_24 (Memref.isWhole_whole _) hwx0_24 hstage0_24

abbrev win0_25 : Pipeline.Window sig grid0 :=
  Pipeline.Window.ofSpec (Memref.whole main_v35_0) S512x256.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v35_1) S512x256.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 120
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S2048, .f32⟩
  | .hbm, ⟨21, _⟩ => ⟨S2048x2048, .f32⟩
  | .hbm, ⟨22, _⟩ => ⟨S2048, .f32⟩
  | .hbm, ⟨23, _⟩ => ⟨S2048x2048, .f32⟩
  | .hbm, ⟨24, _⟩ => ⟨S2048, .f32⟩
  | .hbm, ⟨25, _⟩ => ⟨S2048x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S2048x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S2048x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S2048x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S2048x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S2048x2048, .f32⟩
  | .hbm, ⟨64, _⟩ => ⟨S8192x2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S2048x2048, .f32⟩
  | .hbm, ⟨69, _⟩ => ⟨S8192x2048, .f32⟩
  | .hbm, ⟨70, _⟩ => ⟨S1x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192x2048, .f32⟩
  | .hbm, ⟨79, _⟩ => ⟨S8192x2048, .f32⟩
  | .hbm, ⟨80, _⟩ => ⟨S_, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S2048x2048, .f32⟩
  | .hbm, ⟨85, _⟩ => ⟨S8192x2048, .f32⟩
  | .hbm, ⟨86, _⟩ => ⟨S1x2048, .f32⟩
  | .hbm, ⟨87, _⟩ => ⟨S8192x2048, .f32⟩
  | .hbm, ⟨88, _⟩ => ⟨S8192x2048, .f32⟩
  | .hbm, ⟨89, _⟩ => ⟨S2048x2048, .f32⟩
  | .hbm, ⟨90, _⟩ => ⟨S8192x2048, .f32⟩
  | .hbm, ⟨91, _⟩ => ⟨S1x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S2048x2048, .f32⟩
  | .hbm, ⟨99, _⟩ => ⟨S8192x2048, .f32⟩
  | .hbm, ⟨100, _⟩ => ⟨S1x2048, .f32⟩
  | .hbm, ⟨101, _⟩ => ⟨S8192x2048, .f32⟩
  | .hbm, ⟨102, _⟩ => ⟨S8192x2048, .f32⟩
  | .hbm, ⟨103, _⟩ => ⟨S2048x2048, .f32⟩
  | .hbm, ⟨104, _⟩ => ⟨S8192x2048, .f32⟩
  | .hbm, ⟨105, _⟩ => ⟨S1x2048, .f32⟩
  | .hbm, ⟨106, _⟩ => ⟨S8192x2048, .f32⟩
  | .hbm, ⟨107, _⟩ => ⟨S8192x2048, .f32⟩
  | .hbm, ⟨108, _⟩ => ⟨S8192x2048, .f32⟩
  | .hbm, ⟨109, _⟩ => ⟨S8192x2048, .f32⟩
  | .hbm, ⟨110, _⟩ => ⟨S8192x2048, .f32⟩
  | .hbm, ⟨111, _⟩ => ⟨S8192x2048, .f32⟩
  | .hbm, ⟨112, _⟩ => ⟨S_, .f32⟩
  | .hbm, ⟨113, _⟩ => ⟨S8192x2048, .f32⟩
  | .hbm, ⟨114, _⟩ => ⟨S8192x2048, .f32⟩
  | .hbm, ⟨115, _⟩ => ⟨S_, .f32⟩
  | .hbm, ⟨116, _⟩ => ⟨S8192x2048, .f32⟩
  | .hbm, ⟨117, _⟩ => ⟨S8192x2048, .f32⟩
  | .hbm, ⟨118, _⟩ => ⟨S8192x2048, .f32⟩
  | .hbm, ⟨119, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst : Ref sig .tc := ⟨.hbm, 57, rfl⟩
abbrev main_v32 : Ref sig .tc := ⟨.hbm, 58, rfl⟩
abbrev main_v33 : Ref sig .tc := ⟨.hbm, 59, rfl⟩
abbrev main_cst_0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_1 : Ref sig .tc := ⟨.hbm, 77, rfl⟩
abbrev main_v50 : Ref sig .tc := ⟨.hbm, 78, rfl⟩
abbrev main_v51 : Ref sig .tc := ⟨.hbm, 79, rfl⟩
abbrev main_cst_2 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_3 : Ref sig .tc := ⟨.hbm, 112, rfl⟩
abbrev main_v83 : Ref sig .tc := ⟨.hbm, 113, rfl⟩
abbrev main_v84 : Ref sig .tc := ⟨.hbm, 114, rfl⟩
abbrev main_cst_4 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Cell.lean ====
/-
  One step of a long short-term memory cell whose three gates also look at the previous cell state through a
  tanh, written entry by entry on the extended reals.

  A dense layer with weights stored [out, in] and a bias [out] has entry (r, j)
      dense v W b r j = (Σ_k v[r,k] · W[j,k]) + b[j].
  With the eleven layers' entries at (r, j) named
      xi hi ci   (input gate:  of x, h, c)        xf hf cf   (forget gate)
      xo ho co   (output gate)                    xg hg      (candidate: of x, h)
  the step is
      gate a b c = logistic (a + b + tanh c)
      c' = gate xf hf cf · c[r,j] + gate xi hi ci · tanh (xg + hg)
      h' = gate xo ho co · tanh c'.
  Nothing here needs an entry to be finite: the two sides compared later apply these same operations in this
  same order, so no law of arithmetic beyond the definition of the logistic function is used.

  The same step is also stated for one TILE: 'lin' is a dense layer's entry when the weights arrive already
  transposed, [in, out], and the bias as a row [1, out] — the form in which a tile of the output is computed from a
  row block of the activations and a column block of each weight.
-/
import Mathlib
import Idealize.ShloMosaic.Lib.ValueIdx
import Idealize.ShloMosaic.PureOps.Ideal.Laws

noncomputable section

namespace Cert.Lstm

open Idealize.ShloMosaic Idealize.ShloMosaic.ValueIdx

/-- A rank-two array of extended reals. -/
abbrev Mat (a b : Nat) := (⟨2, ![a, b]⟩ : Shape).Idx → EReal
/-- A rank-one array of extended reals. -/
abbrev Row (a : Nat) := (⟨1, ![a]⟩ : Shape).Idx → EReal

/-- Entry (r, j) of a dense layer: weights [out, in], bias [out]. -/
def dense {R K N : Nat} (v : Mat R K) (W : Mat N K) (b : Row N) (r : Fin R) (j : Fin N) : EReal :=
  (∑ k : Fin K, v (ix2 r k) * W (ix2 j k)) + b (ix1 j)

/-- Entry (p, q) of a dense layer whose weights arrive transposed, [in, out], and whose bias is a row [1, out]. -/
def lin {R K N : Nat} (v : Mat R K) (w : Mat K N) (b : Mat 1 N) (p : Fin R) (q : Fin N) : EReal :=
  (∑ k : Fin K, v (ix2 p k) * w (ix2 k q)) + b (ix2 0 q)

/-- A gate: the logistic function of two layers' entries plus the tanh of a third. -/
def gate (a b c : EReal) : EReal := Ideal.logistic (a + b + Ideal.tanh c)

/-- The new cell state's entry from the layers' entries and the previous cell state's entry. -/
def cellC (xi hi ci xf hf cf xg hg cprev : EReal) : EReal :=
  gate xf hf cf * cprev + gate xi hi ci * Ideal.tanh (xg + hg)

/-- The new hidden state's entry from the output gate's layers and the new cell state's entry. -/
def cellH (xo ho co cnew : EReal) : EReal := gate xo ho co * Ideal.tanh cnew

/-- The logistic function spelt out with a unit that is only known to denote one:
    one / (one + e^(-x)) is logistic x, at the infinities too (both sides are the same expression). -/
theorem div_one_add_exp_neg {one : EReal} (h1 : one = 1) (x : EReal) :
    Ideal.div one (one + Ideal.exp (-x)) = Ideal.logistic x := by
  subst h1; rfl

/-- The step's twenty-five arguments. -/
structure Args where
  x : Mat 8192 2048
  h : Mat 8192 2048
  c : Mat 8192 2048
  Wxi : Mat 2048 2048
  bxi : Row 2048
  Whi : Mat 2048 2048
  bhi : Row 2048
  Wci : Mat 2048 2048
  bci : Row 2048
  Wxf : Mat 2048 2048
  bxf : Row 2048
  Whf : Mat 2048 2048
  bhf : Row 2048
  Wcf : Mat 2048 2048
  bcf : Row 2048
  Wxo : Mat 2048 2048
  bxo : Row 2048
  Who : Mat 2048 2048
  bho : Row 2048
  Wco : Mat 2048 2048
  bco : Row 2048
  Wxg : Mat 2048 2048
  bxg : Row 2048
  Whg : Mat 2048 2048
  bhg : Row 2048

/-- The new cell state at (r, j). -/
def Args.cNew (A : Args) (r : Fin 8192) (j : Fin 2048) : EReal :=
  cellC (dense A.x A.Wxi A.bxi r j) (dense A.h A.Whi A.bhi r j) (dense A.c A.Wci A.bci r j)
    (dense A.x A.Wxf A.bxf r j) (dense A.h A.Whf A.bhf r j) (dense A.c A.Wcf A.bcf r j)
    (dense A.x A.Wxg A.bxg r j) (dense A.h A.Whg A.bhg r j) (A.c (ix2 r j))

/-- The new hidden state at (r, j). -/
def Args.hNew (A : Args) (r : Fin 8192) (j : Fin 2048) : EReal :=
  cellH (dense A.x A.Wxo A.bxo r j) (dense A.h A.Who A.bho r j) (dense A.c A.Wco A.bco r j) (A.cNew r j)

/-- The new cell state as an array. -/
def Args.cArr (A : Args) : Mat 8192 2048 := fun i => A.cNew (i 0) (i 1)

/-- The new hidden state as an array. -/
def Args.hArr (A : Args) : Mat 8192 2048 := fun i => A.hNew (i 0) (i 1)

theorem Args.cArr_ix2 (A : Args) (r : Fin 8192) (j : Fin 2048) : A.cArr (ix2 r j) = A.cNew r j := rfl
theorem Args.hArr_ix2 (A : Args) (r : Fin 8192) (j : Fin 2048) : A.hArr (ix2 r j) = A.hNew r j := rfl

end Cert.Lstm

end
-- ==== Proof.RefCell.lean ====
/-
  The reference program, stage by stage, is the cell step of Cell.lean at every entry.

  Each of its eleven dense layers is the same five host operations — transpose the weights, contract the
  activations' axis 1 with the transposed weights' axis 0, lift the bias to a row, repeat the row, add — so its entry
  (r, j) is 'dense': Σ_k v[r,k] · W[j,k] + b[j]. Each gate is written out as 1 / (1 + e^(-s)) with the literal 1.0,
  which denotes one; that expression is the logistic function by definition. The rest is entrywise.
-/
import proofs.«105667_j80350248173768_2_alg».proof.Proof.Gen.ReferenceIdeal.Read
import proofs.«105667_j80350248173768_2_alg».proof.Proof.Cell

noncomputable section

namespace Cert.Lstm.Ref

open Idealize.ShloMosaic Idealize.ShloMosaic.ValueIdx Cert.ReferenceIdeal Cert.ReferenceIdeal.Read Cert.Lstm

/-- A dense layer of the reference at (r, j): the contraction index runs along the activations' row r and the
    weights' row j (the transpose swaps the weights' coordinates back), and the twice-lifted bias reads entry j. -/
theorem layer_apply (v : (⟨S8192x2048, .f32⟩ : BufTy).Contents (Elt Ideal)) (W : (⟨S2048x2048, .f32⟩ : BufTy).Contents (Elt Ideal)) (b : (⟨S2048, .f32⟩ : BufTy).Contents (Elt Ideal))
    (r : Fin 8192) (j : Fin 2048) :
    val_main_v4 (F := Ideal) v W b (ix2 r j) = dense v W b r j := by
  rw [val_main_v4_apply, val_main_v1_apply, val_main_v3_apply, val_main_v2_apply, Ideal.addf_def]
  unfold dense
  refine congrArg₂ (· + ·) (Finset.sum_congr rfl fun k _ => ?_) ?_
  · rw [val_main_v0_apply]
    have e1 : lidx_main_v1 (ix2 r j) k = ix2 r k :=
      funext fun a => Fin.ext (by match a with | ⟨0, _⟩ => rfl | ⟨1, _⟩ => rfl)
    have e2 : idx_main_v0 (ridx_main_v1 (ix2 r j) k) = ix2 j k :=
      funext fun a => Fin.ext (by match a with | ⟨0, _⟩ => rfl | ⟨1, _⟩ => rfl)
    rw [e1, e2]
  · have e3 : idx_main_v2 (idx_main_v3 (ix2 r j)) = ix1 j :=
      funext fun a => Fin.ext (by match a with | ⟨0, _⟩ => rfl)
    rw [e3]

/-! The eleven layers: each is that composite of its own three arguments. -/

/-- The input gate's look at the cell state. -/
theorem layer_v4 (x2 : (⟨S8192x2048, .f32⟩ : BufTy).Contents (Elt Ideal)) (x7 : (⟨S2048x2048, .f32⟩ : BufTy).Contents (Elt Ideal)) (x8 : (⟨S2048, .f32⟩ : BufTy).Contents (Elt Ideal)) (r : Fin 8192) (j : Fin 2048) :
    val_main_v4 (F := Ideal) x2 x7 x8 (ix2 r j) = dense x2 x7 x8 r j :=
  layer_apply x2 x7 x8 r j

/-- The forget gate's look at the cell state. -/
theorem layer_v10 (x2 : (⟨S8192x2048, .f32⟩ : BufTy).Contents (Elt Ideal)) (x13 : (⟨S2048x2048, .f32⟩ : BufTy).Contents (Elt Ideal)) (x14 : (⟨S2048, .f32⟩ : BufTy).Contents (Elt Ideal)) (r : Fin 8192) (j : Fin 2048) :
    val_main_v10 (F := Ideal) x2 x13 x14 (ix2 r j) = dense x2 x13 x14 r j :=
  layer_apply x2 x13 x14 r j

/-- The output gate's look at the cell state. -/
theorem layer_v16 (x2 : (⟨S8192x2048, .f32⟩ : BufTy).Contents (Elt Ideal)) (x19 : (⟨S2048x2048, .f32⟩ : BufTy).Contents (Elt Ideal)) (x20 : (⟨S2048, .f32⟩ : BufTy).Contents (Elt Ideal)) (r : Fin 8192) (j : Fin 2048) :
    val_main_v16 (F := Ideal) x2 x19 x20 (ix2 r j) = dense x2 x19 x20 r j :=
  layer_apply x2 x19 x20 r j

/-- The input gate's layer of x. -/
theorem layer_v22 (x0 : (⟨S8192x2048, .f32⟩ : BufTy).Contents (Elt Ideal)) (x3 : (⟨S2048x2048, .f32⟩ : BufTy).Contents (Elt Ideal)) (x4 : (⟨S2048, .f32⟩ : BufTy).Contents (Elt Ideal)) (r : Fin 8192) (j : Fin 2048) :
    val_main_v22 (F := Ideal) x0 x3 x4 (ix2 r j) = dense x0 x3 x4 r j :=
  layer_apply x0 x3 x4 r j

/-- The input gate's layer of h. -/
theorem layer_v27 (x1 : (⟨S8192x2048, .f32⟩ : BufTy).Contents (Elt Ideal)) (x5 : (⟨S2048x2048, .f32⟩ : BufTy).Contents (Elt Ideal)) (x6 : (⟨S2048, .f32⟩ : BufTy).Contents (Elt Ideal)) (r : Fin 8192) (j : Fin 2048) :
    val_main_v27 (F := Ideal) x1 x5 x6 (ix2 r j) = dense x1 x5 x6 r j :=
  layer_apply x1 x5 x6 r j

/-- The forget gate's layer of x. -/
theorem layer_v40 (x0 : (⟨S8192x2048, .f32⟩ : BufTy).Contents (Elt Ideal)) (x9 : (⟨S2048x2048, .f32⟩ : BufTy).Contents (Elt Ideal)) (x10 : (⟨S2048, .f32⟩ : BufTy).Contents (Elt Ideal)) (r : Fin 8192) (j : Fin 2048) :
    val_main_v40 (F := Ideal) x0 x9 x10 (ix2 r j) = dense x0 x9 x10 r j :=
  layer_apply x0 x9 x10 r j

/-- The forget gate's layer of h. -/
theorem layer_v45 (x1 : (⟨S8192x2048, .f32⟩ : BufTy).Contents (Elt Ideal)) (x11 : (⟨S2048x2048, .f32⟩ : BufTy).Contents (Elt Ideal)) (x12 : (⟨S2048, .f32⟩ : BufTy).Contents (Elt Ideal)) (r : Fin 8192) (j : Fin 2048) :
    val_main_v45 (F := Ideal) x1 x11 x12 (ix2 r j) = dense x1 x11 x12 r j :=
  layer_apply x1 x11 x12 r j

/-- The candidate's layer of x. -/
theorem layer_v59 (x0 : (⟨S8192x2048, .f32⟩ : BufTy).Contents (Elt Ideal)) (x21 : (⟨S2048x2048, .f32⟩ : BufTy).Contents (Elt Ideal)) (x22 : (⟨S2048, .f32⟩ : BufTy).Contents (Elt Ideal)) (r : Fin 8192) (j : Fin 2048) :
    val_main_v59 (F := Ideal) x0 x21 x22 (ix2 r j) = dense x0 x21 x22 r j :=
  layer_apply x0 x21 x22 r j

/-- The candidate's layer of h. -/
theorem layer_v64 (x1 : (⟨S8192x2048, .f32⟩ : BufTy).Contents (Elt Ideal)) (x23 : (⟨S2048x2048, .f32⟩ : BufTy).Contents (Elt Ideal)) (x24 : (⟨S2048, .f32⟩ : BufTy).Contents (Elt Ideal)) (r : Fin 8192) (j : Fin 2048) :
    val_main_v64 (F := Ideal) x1 x23 x24 (ix2 r j) = dense x1 x23 x24 r j :=
  layer_apply x1 x23 x24 r j

/-- The output gate's layer of x. -/
theorem layer_v73 (x0 : (⟨S8192x2048, .f32⟩ : BufTy).Contents (Elt Ideal)) (x15 : (⟨S2048x2048, .f32⟩ : BufTy).Contents (Elt Ideal)) (x16 : (⟨S2048, .f32⟩ : BufTy).Contents (Elt Ideal)) (r : Fin 8192) (j : Fin 2048) :
    val_main_v73 (F := Ideal) x0 x15 x16 (ix2 r j) = dense x0 x15 x16 r j :=
  layer_apply x0 x15 x16 r j

/-- The output gate's layer of h. -/
theorem layer_v78 (x1 : (⟨S8192x2048, .f32⟩ : BufTy).Contents (Elt Ideal)) (x17 : (⟨S2048x2048, .f32⟩ : BufTy).Contents (Elt Ideal)) (x18 : (⟨S2048, .f32⟩ : BufTy).Contents (Elt Ideal)) (r : Fin 8192) (j : Fin 2048) :
    val_main_v78 (F := Ideal) x1 x17 x18 (ix2 r j) = dense x1 x17 x18 r j :=
  layer_apply x1 x17 x18 r j

/-- The input gate at (r, j): one over one plus e to the minus sum, with 1.0 denoting one. -/
theorem gate_v35 (x0 : (⟨S8192x2048, .f32⟩ : BufTy).Contents (Elt Ideal)) (x1 : (⟨S8192x2048, .f32⟩ : BufTy).Contents (Elt Ideal)) (x2 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (r : Fin 8192) (j : Fin 2048) :
    val_main_v35 (F := Ideal) x0 x1 x2 x3 x4 x5 x6 x7 x8 (ix2 r j)
      = gate (dense x0 x3 x4 r j) (dense x1 x5 x6 r j) (dense x2 x7 x8 r j) := by
  rw [val_main_v35_apply, val_main_v34_apply, val_main_cst_0_apply, val_main_v33_apply, val_main_v32_apply,
    val_main_cst_apply, val_main_v31_apply, val_main_v30_apply, val_main_v29_apply, val_main_v28_apply,
    val_main_v5_apply, layer_v22, layer_v27, layer_v4]
  exact div_one_add_exp_neg (IdealRules.sign_bit.ideal_onePat .f32) _

/-- The forget gate at (r, j): one over one plus e to the minus sum, with 1.0 denoting one. -/
theorem gate_v53 (x0 : (⟨S8192x2048, .f32⟩ : BufTy).Contents (Elt Ideal)) (x1 : (⟨S8192x2048, .f32⟩ : BufTy).Contents (Elt Ideal)) (x2 : (⟨S8192x2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (r : Fin 8192) (j : Fin 2048) :
    val_main_v53 (F := Ideal) x0 x1 x2 x9 x10 x11 x12 x13 x14 (ix2 r j)
      = gate (dense x0 x9 x10 r j) (dense x1 x11 x12 r j) (dense x2 x13 x14 r j) := by
  rw [val_main_v53_apply, val_main_v52_apply, val_main_cst_2_apply, val_main_v51_apply, val_main_v50_apply,
    val_main_cst_1_apply, val_main_v49_apply, val_main_v48_apply, val_main_v47_apply, val_main_v46_apply,
    val_main_v11_apply, layer_v40, layer_v45, layer_v10]
  exact div_one_add_exp_neg (IdealRules.sign_bit.ideal_onePat .f32) _

/-- The output gate at (r, j): one over one plus e to the minus sum, with 1.0 denoting one. -/
theorem gate_v86 (x0 : (⟨S8192x2048, .f32⟩ : BufTy).Contents (Elt Ideal)) (x1 : (⟨S8192x2048, .f32⟩ : BufTy).Contents (Elt Ideal)) (x2 : (⟨S8192x2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal)) (r : Fin 8192) (j : Fin 2048) :
    val_main_v86 (F := Ideal) x0 x1 x2 x15 x16 x17 x18 x19 x20 (ix2 r j)
      = gate (dense x0 x15 x16 r j) (dense x1 x17 x18 r j) (dense x2 x19 x20 r j) := by
  rw [val_main_v86_apply, val_main_v85_apply, val_main_cst_4_apply, val_main_v84_apply, val_main_v83_apply,
    val_main_cst_3_apply, val_main_v82_apply, val_main_v81_apply, val_main_v80_apply, val_main_v79_apply,
    val_main_v17_apply, layer_v73, layer_v78, layer_v16]
  exact div_one_add_exp_neg (IdealRules.sign_bit.ideal_onePat .f32) _

/-- The reference's new cell state at (r, j). -/
theorem cnew_apply (x0 : (⟨S8192x2048, .f32⟩ : BufTy).Contents (Elt Ideal)) (x1 : (⟨S8192x2048, .f32⟩ : BufTy).Contents (Elt Ideal)) (x2 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal)) (x21 : (⟨S2048x2048, .f32⟩ : BufTy).Contents (Elt Ideal)) (x22 : (⟨S2048, .f32⟩ : BufTy).Contents (Elt Ideal)) (x23 : (⟨S2048x2048, .f32⟩ : BufTy).Contents (Elt Ideal)) (x24 : (⟨S2048, .f32⟩ : BufTy).Contents (Elt Ideal)) (r : Fin 8192) (j : Fin 2048) :
    val_main_v68 (F := Ideal) x0 x1 x2 x3 x4 x5 x6 x7 x8 x9 x10 x11 x12 x13 x14 x21 x22 x23 x24 (ix2 r j) = (Args.mk x0 x1 x2 x3 x4 x5 x6 x7 x8 x9 x10 x11 x12 x13 x14 x15 x16 x17 x18 x19 x20 x21 x22 x23 x24).cNew r j := by
  rw [val_main_v68_apply, val_main_v54_apply, val_main_v67_apply, val_main_v66_apply, val_main_v65_apply,
    gate_v53, gate_v35, layer_v59, layer_v64]
  rfl

/-- The reference's new hidden state at (r, j). -/
theorem hnew_apply (x0 : (⟨S8192x2048, .f32⟩ : BufTy).Contents (Elt Ideal)) (x1 : (⟨S8192x2048, .f32⟩ : BufTy).Contents (Elt Ideal)) (x2 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal)) (x21 : (⟨S2048x2048, .f32⟩ : BufTy).Contents (Elt Ideal)) (x22 : (⟨S2048, .f32⟩ : BufTy).Contents (Elt Ideal)) (x23 : (⟨S2048x2048, .f32⟩ : BufTy).Contents (Elt Ideal)) (x24 : (⟨S2048, .f32⟩ : BufTy).Contents (Elt Ideal)) (r : Fin 8192) (j : Fin 2048) :
    val_main_v88 (F := Ideal) x0 x1 x2 x3 x4 x5 x6 x7 x8 x9 x10 x11 x12 x13 x14 x15 x16 x17 x18 x19 x20 x21 x22 x23 x24 (ix2 r j) = (Args.mk x0 x1 x2 x3 x4 x5 x6 x7 x8 x9 x10 x11 x12 x13 x14 x15 x16 x17 x18 x19 x20 x21 x22 x23 x24).hNew r j := by
  rw [val_main_v88_apply, val_main_v87_apply, gate_v86, cnew_apply x0 x1 x2 x3 x4 x5 x6 x7 x8 x9 x10 x11 x12 x13 x14 x15 x16 x17 x18 x19 x20 x21 x22 x23 x24]
  rfl

/-- The reference's new cell state, as an array. -/
theorem cnew_eq (x0 : (⟨S8192x2048, .f32⟩ : BufTy).Contents (Elt Ideal)) (x1 : (⟨S8192x2048, .f32⟩ : BufTy).Contents (Elt Ideal)) (x2 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal)) (x21 : (⟨S2048x2048, .f32⟩ : BufTy).Contents (Elt Ideal)) (x22 : (⟨S2048, .f32⟩ : BufTy).Contents (Elt Ideal)) (x23 : (⟨S2048x2048, .f32⟩ : BufTy).Contents (Elt Ideal)) (x24 : (⟨S2048, .f32⟩ : BufTy).Contents (Elt Ideal)) :
    val_main_v68 (F := Ideal) x0 x1 x2 x3 x4 x5 x6 x7 x8 x9 x10 x11 x12 x13 x14 x21 x22 x23 x24 = (Args.mk x0 x1 x2 x3 x4 x5 x6 x7 x8 x9 x10 x11 x12 x13 x14 x15 x16 x17 x18 x19 x20 x21 x22 x23 x24).cArr := by
  funext i
  obtain ⟨r, j, rfl⟩ : ∃ (r : Fin 8192) (j : Fin 2048), i = ix2 r j := ⟨i 0, i 1, eq_ix2 i⟩
  exact cnew_apply x0 x1 x2 x3 x4 x5 x6 x7 x8 x9 x10 x11 x12 x13 x14 x15 x16 x17 x18 x19 x20 x21 x22 x23 x24 r j

/-- The reference's new hidden state, as an array. -/
theorem hnew_eq (x0 : (⟨S8192x2048, .f32⟩ : BufTy).Contents (Elt Ideal)) (x1 : (⟨S8192x2048, .f32⟩ : BufTy).Contents (Elt Ideal)) (x2 : (⟨S8192x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (x12 : (⟨S2048, .f32⟩ : BufTy).Contents (Elt Ideal)) (x13 : (⟨S2048x2048, .f32⟩ : BufTy).Contents (Elt Ideal)) (x14 : (⟨S2048, .f32⟩ : BufTy).Contents (Elt Ideal)) (x15 : (⟨S2048x2048, .f32⟩ : BufTy).Contents (Elt Ideal)) (x16 : (⟨S2048, .f32⟩ : BufTy).Contents (Elt Ideal)) (x17 : (⟨S2048x2048, .f32⟩ : BufTy).Contents (Elt Ideal)) (x18 : (⟨S2048, .f32⟩ : BufTy).Contents (Elt Ideal)) (x19 : (⟨S2048x2048, .f32⟩ : BufTy).Contents (Elt Ideal)) (x20 : (⟨S2048, .f32⟩ : BufTy).Contents (Elt Ideal)) (x21 : (⟨S2048x2048, .f32⟩ : BufTy).Contents (Elt Ideal)) (x22 : (⟨S2048, .f32⟩ : BufTy).Contents (Elt Ideal)) (x23 : (⟨S2048x2048, .f32⟩ : BufTy).Contents (Elt Ideal)) (x24 : (⟨S2048, .f32⟩ : BufTy).Contents (Elt Ideal)) :
    val_main_v88 (F := Ideal) x0 x1 x2 x3 x4 x5 x6 x7 x8 x9 x10 x11 x12 x13 x14 x15 x16 x17 x18 x19 x20 x21 x22 x23 x24 = (Args.mk x0 x1 x2 x3 x4 x5 x6 x7 x8 x9 x10 x11 x12 x13 x14 x15 x16 x17 x18 x19 x20 x21 x22 x23 x24).hArr := by
  funext i
  obtain ⟨r, j, rfl⟩ : ∃ (r : Fin 8192) (j : Fin 2048), i = ix2 r j := ⟨i 0, i 1, eq_ix2 i⟩
  exact hnew_apply x0 x1 x2 x3 x4 x5 x6 x7 x8 x9 x10 x11 x12 x13 x14 x15 x16 x17 x18 x19 x20 x21 x22 x23 x24 r j

/-- The same, for arrays that are only known to equal the arguments (as when two memories agree on them). -/
theorem cnew_eq_of {A : Args} {x0 : (⟨S8192x2048, .f32⟩ : BufTy).Contents (Elt Ideal)} {x1 : (⟨S8192x2048, .f32⟩ : BufTy).Contents (Elt Ideal)} {x2 : (⟨S8192x2048, .f32⟩ : BufTy).Contents (Elt Ideal)} {x3 : (⟨S2048x2048, .f32⟩ : BufTy).Contents (Elt Ideal)} {x4 : (⟨S2048, .f32⟩ : BufTy).Contents (Elt Ideal)} {x5 : (⟨S2048x2048, .f32⟩ : BufTy).Contents (Elt Ideal)} {x6 : (⟨S2048, .f32⟩ : BufTy).Contents (Elt Ideal)} {x7 : (⟨S2048x2048, .f32⟩ : BufTy).Contents (Elt Ideal)} {x8 : (⟨S2048, .f32⟩ : BufTy).Contents (Elt Ideal)} {x9 : (⟨S2048x2048, .f32⟩ : BufTy).Contents (Elt Ideal)} {x10 : (⟨S2048, .f32⟩ : BufTy).Contents (Elt Ideal)} {x11 : (⟨S2048x2048, .f32⟩ : BufTy).Contents (Elt Ideal)} {x12 : (⟨S2048, .f32⟩ : BufTy).Contents (Elt Ideal)} {x13 : (⟨S2048x2048, .f32⟩ : BufTy).Contents (Elt Ideal)} {x14 : (⟨S2048, .f32⟩ : BufTy).Contents (Elt Ideal)} {x15 : (⟨S2048x2048, .f32⟩ : BufTy).Contents (Elt Ideal)} {x16 : (⟨S2048, .f32⟩ : BufTy).Contents (Elt Ideal)} {x17 : (⟨S2048x2048, .f32⟩ : BufTy).Contents (Elt Ideal)} {x18 : (⟨S2048, .f32⟩ : BufTy).Contents (Elt Ideal)} {x19 : (⟨S2048x2048, .f32⟩ : BufTy).Contents (Elt Ideal)} {x20 : (⟨S2048, .f32⟩ : BufTy).Contents (Elt Ideal)} {x21 : (⟨S2048x2048, .f32⟩ : BufTy).Contents (Elt Ideal)} {x22 : (⟨S2048, .f32⟩ : BufTy).Contents (Elt Ideal)} {x23 : (⟨S2048x2048, .f32⟩ : BufTy).Contents (Elt Ideal)} {x24 : (⟨S2048, .f32⟩ : BufTy).Contents (Elt Ideal)}
    (h0 : x0 = A.x) (h1 : x1 = A.h) (h2 : x2 = A.c) (h3 : x3 = A.Wxi) (h4 : x4 = A.bxi) (h5 : x5 = A.Whi) (h6 : x6 = A.bhi) (h7 : x7 = A.Wci) (h8 : x8 = A.bci) (h9 : x9 = A.Wxf) (h10 : x10 = A.bxf) (h11 : x11 = A.Whf) (h12 : x12 = A.bhf) (h13 : x13 = A.Wcf) (h14 : x14 = A.bcf) (h15 : x15 = A.Wxo) (h16 : x16 = A.bxo) (h17 : x17 = A.Who) (h18 : x18 = A.bho) (h19 : x19 = A.Wco) (h20 : x20 = A.bco) (h21 : x21 = A.Wxg) (h22 : x22 = A.bxg) (h23 : x23 = A.Whg) (h24 : x24 = A.bhg) :
    val_main_v68 (F := Ideal) x0 x1 x2 x3 x4 x5 x6 x7 x8 x9 x10 x11 x12 x13 x14 x21 x22 x23 x24 = A.cArr := by
  subst h0 h1 h2 h3 h4 h5 h6 h7 h8 h9 h10 h11 h12 h13 h14 h15 h16 h17 h18 h19 h20 h21 h22 h23 h24
  exact cnew_eq A.x A.h A.c A.Wxi A.bxi A.Whi A.bhi A.Wci A.bci A.Wxf A.bxf A.Whf A.bhf A.Wcf A.bcf A.Wxo A.bxo A.Who A.bho A.Wco A.bco A.Wxg A.bxg A.Whg A.bhg

theorem hnew_eq_of {A : Args} {x0 : (⟨S8192x2048, .f32⟩ : BufTy).Contents (Elt Ideal)} {x1 : (⟨S8192x2048, .f32⟩ : BufTy).Contents (Elt Ideal)} {x2 : (⟨S8192x2048, .f32⟩ : BufTy).Contents (Elt Ideal)} {x3 : (⟨S2048x2048, .f32⟩ : BufTy).Contents (Elt Ideal)} {x4 : (⟨S2048, .f32⟩ : BufTy).Contents (Elt Ideal)} {x5 : (⟨S2048x2048, .f32⟩ : BufTy).Contents (Elt Ideal)} {x6 : (⟨S2048, .f32⟩ : BufTy).Contents (Elt Ideal)} {x7 : (⟨S2048x2048, .f32⟩ : BufTy).Contents (Elt Ideal)} {x8 : (⟨S2048, .f32⟩ : BufTy).Contents (Elt Ideal)} {x9 : (⟨S2048x2048, .f32⟩ : BufTy).Contents (Elt Ideal)} {x10 : (⟨S2048, .f32⟩ : BufTy).Contents (Elt Ideal)} {x11 : (⟨S2048x2048, .f32⟩ : BufTy).Contents (Elt Ideal)} {x12 : (⟨S2048, .f32⟩ : BufTy).Contents (Elt Ideal)} {x13 : (⟨S2048x2048, .f32⟩ : BufTy).Contents (Elt Ideal)} {x14 : (⟨S2048, .f32⟩ : BufTy).Contents (Elt Ideal)} {x15 : (⟨S2048x2048, .f32⟩ : BufTy).Contents (Elt Ideal)} {x16 : (⟨S2048, .f32⟩ : BufTy).Contents (Elt Ideal)} {x17 : (⟨S2048x2048, .f32⟩ : BufTy).Contents (Elt Ideal)} {x18 : (⟨S2048, .f32⟩ : BufTy).Contents (Elt Ideal)} {x19 : (⟨S2048x2048, .f32⟩ : BufTy).Contents (Elt Ideal)} {x20 : (⟨S2048, .f32⟩ : BufTy).Contents (Elt Ideal)} {x21 : (⟨S2048x2048, .f32⟩ : BufTy).Contents (Elt Ideal)} {x22 : (⟨S2048, .f32⟩ : BufTy).Contents (Elt Ideal)} {x23 : (⟨S2048x2048, .f32⟩ : BufTy).Contents (Elt Ideal)} {x24 : (⟨S2048, .f32⟩ : BufTy).Contents (Elt Ideal)}
    (h0 : x0 = A.x) (h1 : x1 = A.h) (h2 : x2 = A.c) (h3 : x3 = A.Wxi) (h4 : x4 = A.bxi) (h5 : x5 = A.Whi) (h6 : x6 = A.bhi) (h7 : x7 = A.Wci) (h8 : x8 = A.bci) (h9 : x9 = A.Wxf) (h10 : x10 = A.bxf) (h11 : x11 = A.Whf) (h12 : x12 = A.bhf) (h13 : x13 = A.Wcf) (h14 : x14 = A.bcf) (h15 : x15 = A.Wxo) (h16 : x16 = A.bxo) (h17 : x17 = A.Who) (h18 : x18 = A.bho) (h19 : x19 = A.Wco) (h20 : x20 = A.bco) (h21 : x21 = A.Wxg) (h22 : x22 = A.bxg) (h23 : x23 = A.Whg) (h24 : x24 = A.bhg) :
    val_main_v88 (F := Ideal) x0 x1 x2 x3 x4 x5 x6 x7 x8 x9 x10 x11 x12 x13 x14 x15 x16 x17 x18 x19 x20 x21 x22 x23 x24 = A.hArr := by
  subst h0 h1 h2 h3 h4 h5 h6 h7 h8 h9 h10 h11 h12 h13 h14 h15 h16 h17 h18 h19 h20 h21 h22 h23 h24
  exact hnew_eq A.x A.h A.c A.Wxi A.bxi A.Whi A.bhi A.Wci A.bci A.Wxf A.bxf A.Whf A.bhf A.Wcf A.bcf A.Wxo A.bxo A.Who A.bho A.Wco A.bco A.Wxg A.bxg A.Whg A.bhg

end Cert.Lstm.Ref

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Tile.lean ====
/-
  The kernel body's arithmetic, read at one entry (p, q) of a 512 × 256 output tile.

  The body holds a 512 × 2048 row block of each of x, h and c, a 2048 × 256 column block of each of the eleven
  transposed weights and a 1 × 256 block of each bias. Each matrix product into a zero accumulator is the sum over
  the 2048 contraction indices, each bias row is repeated down the 512 rows, a change of float format is the
  identity on the extended reals, and everything else is entrywise. So at (p, q) the two values the body stores are
  the cell step of Cell.lean over the eleven 'lin' entries of the blocks and the entry of the previous cell state's
  tile.
-/
import proofs.«105667_j80350248173768_2_alg».proof.Proof.Gen.KernelIdeal.Skeleton
import proofs.«105667_j80350248173768_2_alg».proof.Proof.LibDot
import proofs.«105667_j80350248173768_2_alg».proof.Proof.Cell
import Idealize.ShloMosaic.Lib.ValueLayout
import Idealize.ShloMosaic.Lib.Pipeline.Value

noncomputable section

namespace Cert.Lstm.Tile

open Idealize.ShloMosaic Idealize.ShloMosaic.ValueIdx Cert.KernelIdeal Cert.KernelIdeal.Gen Cert.Lstm

/-- The body's product contracts axis 1 of a [512, 2048] block with axis 0 of a [2048, 256] block. -/
theorem dot_plain : Cert.LibDot.Plain dot_S512x2048_S2048x256_S512x256_1_0_0_1_n_n where
  hrank := rfl
  hs := rfl
  hl0 := fun j k => by
    unfold DotDims.lhsIdx
    rw [dif_neg (show ¬(0 : Fin S512x2048.rank) ∈ dot_S512x2048_S2048x256_S512x256_1_0_0_1_n_n.lhsBatch by decide),
      dif_pos (show (0 : Fin S512x2048.rank) ∈ dot_S512x2048_S2048x256_S512x256_1_0_0_1_n_n.lhsNonContracting by decide)]
    rfl
  hl1 := fun j k => dot_S512x2048_S2048x256_S512x256_1_0_0_1_n_n.lhsIdx_val_of_single rfl j k
  hr0 := fun j k => dot_S512x2048_S2048x256_S512x256_1_0_0_1_n_n.rhsIdx_val_of_single rfl j k
  hr1 := fun j k => by
    unfold DotDims.rhsIdx
    rw [dif_neg (show ¬(1 : Fin S2048x256.rank) ∈ dot_S512x2048_S2048x256_S512x256_1_0_0_1_n_n.rhsBatch by decide),
      dif_pos (show (1 : Fin S2048x256.rank) ∈ dot_S512x2048_S2048x256_S512x256_1_0_0_1_n_n.rhsNonContracting by decide)]
    rfl

/-- A product of a row block with a weight block, at (p, q): the sum over the contraction index. -/
theorem prod_apply {φ : FTy} (a : FVec Ideal S512x2048 φ) (w : FVec Ideal S2048x256 .bf16) (p : Fin 512) (q : Fin 256) :
    matmul dot_S512x2048_S2048x256_S512x256_1_0_0_1_n_n none a (shapeCast S2048x256 w shapeCasts_S2048x256_S2048x256)
        (constant (F := Ideal) S512x256 .f32 0x00000000#32) (ix2 p q)
      = ∑ k : Fin 2048, a (ix2 p k) * w (ix2 k q) := by
  rw [shapeCast_self]
  exact Cert.LibDot.matmul_ix2 dot_plain none a w p q

/-- A bias row repeated down the rows, at (p, q): the row's entry q. -/
theorem bias_apply (b : FVec Ideal S1x256 .f32) (p : Fin 512) (q : Fin 256) :
    broadcastTo S512x256 (shapeCast S1x256 b shapeCasts_S1x256_S1x256) broadcasts_S1x256_S512x256 (ix2 p q)
      = b (ix2 (0 : Fin 1) q) := by
  rw [shapeCast_self]
  exact broadcastTo_1b_ab_apply b broadcasts_S1x256_S512x256 p q

/-- One dense layer of the body, at (p, q). -/
theorem layer_apply {φ : FTy} (a : FVec Ideal S512x2048 φ) (w : FVec Ideal S2048x256 .bf16) (b : FVec Ideal S1x256 .f32)
    (p : Fin 512) (q : Fin 256) :
    addf (matmul dot_S512x2048_S2048x256_S512x256_1_0_0_1_n_n none a (shapeCast S2048x256 w shapeCasts_S2048x256_S2048x256)
        (constant (F := Ideal) S512x256 .f32 0x00000000#32))
      (broadcastTo S512x256 (shapeCast S1x256 b shapeCasts_S1x256_S1x256) broadcasts_S1x256_S512x256) (ix2 p q)
      = lin a w b p q := by
  rw [addf_apply, prod_apply, bias_apply]
  rfl

/-- The row blocks as the body uses them: x and h as loaded, c after the change of format. -/
theorem pay1_eq (x0 : FVec Ideal S512x2048 .bf16) : k0_pay1 (F := Ideal) x0 = x0 := shapeCast_self x0 _
theorem pay2_eq (x1 : FVec Ideal S512x2048 .bf16) : k0_pay2 (F := Ideal) x1 = x1 := shapeCast_self x1 _
theorem pay3_apply (x2 : FVec Ideal S512x2048 .f32) (i : S512x2048.Idx) : k0_pay3 (F := Ideal) x2 i = x2 i := rfl

/-- The sum over k of the previous cell state's block, with or without the change of format. -/
theorem lin_pay3 (x2 : FVec Ideal S512x2048 .f32) (w : FVec Ideal S2048x256 .bf16) (b : FVec Ideal S1x256 .f32)
    (p : Fin 512) (q : Fin 256) : lin (k0_pay3 (F := Ideal) x2) w b p q = lin x2 w b p q := rfl

/-- The input gate's tile, at (p, q). -/
theorem pay4_apply (x0 x1 : FVec Ideal S512x2048 .bf16) (x2 : FVec Ideal S512x2048 .f32)
    (x3 : FVec Ideal S2048x256 .bf16) (x4 : FVec Ideal S1x256 .f32) (x5 : FVec Ideal S2048x256 .bf16)
    (x6 : FVec Ideal S1x256 .f32) (x7 : FVec Ideal S2048x256 .bf16) (x8 : FVec Ideal S1x256 .f32)
    (p : Fin 512) (q : Fin 256) :
    k0_pay4 (F := Ideal) x0 x1 x2 x3 x4 x5 x6 x7 x8 (ix2 p q)
      = gate (lin x0 x3 x4 p q) (lin x1 x5 x6 p q) (lin x2 x7 x8 p q) := by
  unfold k0_pay4
  show Ideal.logistic ((_ + _) + Ideal.tanh _) = _
  refine congrArg Ideal.logistic ?_
  refine congrArg₂ (· + ·) (congrArg₂ (· + ·) ?_ ?_) (congrArg Ideal.tanh ?_)
  · rw [pay1_eq]; exact layer_apply x0 x3 x4 p q
  · rw [pay2_eq]; exact layer_apply x1 x5 x6 p q
  · exact (layer_apply (k0_pay3 (F := Ideal) x2) x7 x8 p q).trans (lin_pay3 x2 x7 x8 p q)

/-- The forget gate's first product, at (p, q). -/
theorem pay5_apply (x0 : FVec Ideal S512x2048 .bf16) (x9 : FVec Ideal S2048x256 .bf16) (p : Fin 512) (q : Fin 256) :
    k0_pay5 (F := Ideal) x0 x9 (ix2 p q) = ∑ k : Fin 2048, x0 (ix2 p k) * x9 (ix2 k q) := by
  unfold k0_pay5
  rw [pay1_eq]
  exact prod_apply x0 x9 p q

/-- The forget gate's tile, at (p, q), from its first product and the blocks. -/
theorem pay6_apply (v3 v5 : FVec Ideal S512x2048 .bf16) (v33 : FVec Ideal S512x256 .f32) (x10 : FVec Ideal S1x256 .f32)
    (x11 : FVec Ideal S2048x256 .bf16) (x12 : FVec Ideal S1x256 .f32) (x13 : FVec Ideal S2048x256 .bf16)
    (x14 : FVec Ideal S1x256 .f32) (p : Fin 512) (q : Fin 256) :
    k0_pay6 (F := Ideal) v3 v5 v33 x10 x11 x12 x13 x14 (ix2 p q)
      = gate (v33 (ix2 p q) + x10 (ix2 (0 : Fin 1) q)) (lin v3 x11 x12 p q) (lin v5 x13 x14 p q) := by
  unfold k0_pay6
  show Ideal.logistic ((_ + _) + Ideal.tanh _) = _
  refine congrArg Ideal.logistic ?_
  refine congrArg₂ (· + ·) (congrArg₂ (· + ·) ?_ ?_) (congrArg Ideal.tanh ?_)
  · show v33 (ix2 p q) + _ = _
    exact congrArg (v33 (ix2 p q) + ·) (bias_apply x10 p q)
  · exact layer_apply v3 x11 x12 p q
  · exact layer_apply v5 x13 x14 p q

/-- The output gate's first two layers, at (p, q). -/
theorem pay7_apply (v1 : FVec Ideal S512x2048 .bf16) (x15 : FVec Ideal S2048x256 .bf16) (x16 : FVec Ideal S1x256 .f32)
    (p : Fin 512) (q : Fin 256) : k0_pay7 (F := Ideal) v1 x15 x16 (ix2 p q) = lin v1 x15 x16 p q := by
  unfold k0_pay7
  exact layer_apply v1 x15 x16 p q

theorem pay8_apply (v3 : FVec Ideal S512x2048 .bf16) (x17 : FVec Ideal S2048x256 .bf16) (x18 : FVec Ideal S1x256 .f32)
    (p : Fin 512) (q : Fin 256) : k0_pay8 (F := Ideal) v3 x17 x18 (ix2 p q) = lin v3 x17 x18 p q := by
  unfold k0_pay8
  exact layer_apply v3 x17 x18 p q

/-- The new cell state's tile, at (p, q), from the two gates' tiles, the candidate's blocks and the previous
    cell state's tile. -/
theorem pay9_apply (v1 v3 : FVec Ideal S512x2048 .bf16) (v30 v55 : FVec Ideal S512x256 .f32)
    (x21 : FVec Ideal S2048x256 .bf16) (x22 : FVec Ideal S1x256 .f32) (x23 : FVec Ideal S2048x256 .bf16)
    (x24 : FVec Ideal S1x256 .f32) (v100 : FVec Ideal S512x256 .f32) (p : Fin 512) (q : Fin 256) :
    k0_pay9 (F := Ideal) v1 v3 v30 v55 x21 x22 x23 x24 v100 (ix2 p q)
      = v55 (ix2 p q) * v100 (ix2 p q) + v30 (ix2 p q) * Ideal.tanh (lin v1 x21 x22 p q + lin v3 x23 x24 p q) := by
  unfold k0_pay9
  show v55 (ix2 p q) * v100 (ix2 p q) + v30 (ix2 p q) * Ideal.tanh (_ + _) = _
  refine congrArg (fun z => v55 (ix2 p q) * v100 (ix2 p q) + v30 (ix2 p q) * Ideal.tanh z) ?_
  exact congrArg₂ (· + ·) (layer_apply v1 x21 x22 p q) (layer_apply v3 x23 x24 p q)

/-- The new hidden state's tile, at (p, q). -/
theorem pay10_apply (v1 v3 v5 : FVec Ideal S512x2048 .bf16) (v30 v55 v62 v69 : FVec Ideal S512x256 .f32)
    (x19 : FVec Ideal S2048x256 .bf16) (x20 : FVec Ideal S1x256 .f32)
    (x21 : FVec Ideal S2048x256 .bf16) (x22 : FVec Ideal S1x256 .f32) (x23 : FVec Ideal S2048x256 .bf16)
    (x24 : FVec Ideal S1x256 .f32) (v100 : FVec Ideal S512x256 .f32) (p : Fin 512) (q : Fin 256) :
    k0_pay10 (F := Ideal) v1 v3 v5 v30 v55 v62 v69 x19 x20 x21 x22 x23 x24 v100 (ix2 p q)
      = gate (v62 (ix2 p q)) (v69 (ix2 p q)) (lin v5 x19 x20 p q)
          * Ideal.tanh (k0_pay9 (F := Ideal) v1 v3 v30 v55 x21 x22 x23 x24 v100 (ix2 p q)) := by
  unfold k0_pay10
  show Ideal.logistic ((v62 (ix2 p q) + v69 (ix2 p q)) + Ideal.tanh _) * Ideal.tanh _ = _
  refine congrArg (fun z => Ideal.logistic ((v62 (ix2 p q) + v69 (ix2 p q)) + Ideal.tanh z)
    * Ideal.tanh (k0_pay9 (F := Ideal) v1 v3 v30 v55 x21 x22 x23 x24 v100 (ix2 p q))) ?_
  exact layer_apply v5 x19 x20 p q

/-! ## The two stored tiles as the cell step of the blocks -/

/-- The tile of the new cell state the body stores, as a function of the twenty-five loaded blocks and the
    previous cell state's tile. -/
def cTile (x0 x1 : FVec Ideal S512x2048 .bf16) (x2 : FVec Ideal S512x2048 .f32)
    (x3 : FVec Ideal S2048x256 .bf16) (x4 : FVec Ideal S1x256 .f32) (x5 : FVec Ideal S2048x256 .bf16)
    (x6 : FVec Ideal S1x256 .f32) (x7 : FVec Ideal S2048x256 .bf16) (x8 : FVec Ideal S1x256 .f32)
    (x9 : FVec Ideal S2048x256 .bf16) (x10 : FVec Ideal S1x256 .f32) (x11 : FVec Ideal S2048x256 .bf16)
    (x12 : FVec Ideal S1x256 .f32) (x13 : FVec Ideal S2048x256 .bf16) (x14 : FVec Ideal S1x256 .f32)
    (x21 : FVec Ideal S2048x256 .bf16) (x22 : FVec Ideal S1x256 .f32) (x23 : FVec Ideal S2048x256 .bf16)
    (x24 : FVec Ideal S1x256 .f32) (v100 : FVec Ideal S512x256 .f32) : FVec Ideal S512x256 .f32 :=
  k0_pay9 (F := Ideal) (k0_pay1 (F := Ideal) x0) (k0_pay2 (F := Ideal) x1) (k0_pay4 (F := Ideal) x0 x1 x2 x3 x4 x5 x6 x7 x8)
    (k0_pay6 (F := Ideal) (k0_pay2 (F := Ideal) x1) (k0_pay3 (F := Ideal) x2) (k0_pay5 (F := Ideal) x0 x9) x10 x11 x12 x13 x14) x21 x22 x23 x24 v100

/-- The tile of the new hidden state the body stores. -/
def hTile (x0 x1 : FVec Ideal S512x2048 .bf16) (x2 : FVec Ideal S512x2048 .f32)
    (x3 : FVec Ideal S2048x256 .bf16) (x4 : FVec Ideal S1x256 .f32) (x5 : FVec Ideal S2048x256 .bf16)
    (x6 : FVec Ideal S1x256 .f32) (x7 : FVec Ideal S2048x256 .bf16) (x8 : FVec Ideal S1x256 .f32)
    (x9 : FVec Ideal S2048x256 .bf16) (x10 : FVec Ideal S1x256 .f32) (x11 : FVec Ideal S2048x256 .bf16)
    (x12 : FVec Ideal S1x256 .f32) (x13 : FVec Ideal S2048x256 .bf16) (x14 : FVec Ideal S1x256 .f32)
    (x15 : FVec Ideal S2048x256 .bf16) (x16 : FVec Ideal S1x256 .f32) (x17 : FVec Ideal S2048x256 .bf16)
    (x18 : FVec Ideal S1x256 .f32) (x19 : FVec Ideal S2048x256 .bf16) (x20 : FVec Ideal S1x256 .f32)
    (x21 : FVec Ideal S2048x256 .bf16) (x22 : FVec Ideal S1x256 .f32) (x23 : FVec Ideal S2048x256 .bf16)
    (x24 : FVec Ideal S1x256 .f32) (v100 : FVec Ideal S512x256 .f32) : FVec Ideal S512x256 .f32 :=
  k0_pay10 (F := Ideal) (k0_pay1 (F := Ideal) x0) (k0_pay2 (F := Ideal) x1) (k0_pay3 (F := Ideal) x2) (k0_pay4 (F := Ideal) x0 x1 x2 x3 x4 x5 x6 x7 x8)
    (k0_pay6 (F := Ideal) (k0_pay2 (F := Ideal) x1) (k0_pay3 (F := Ideal) x2) (k0_pay5 (F := Ideal) x0 x9) x10 x11 x12 x13 x14)
    (k0_pay7 (F := Ideal) (k0_pay1 (F := Ideal) x0) x15 x16) (k0_pay8 (F := Ideal) (k0_pay2 (F := Ideal) x1) x17 x18) x19 x20 x21 x22 x23 x24 v100

/-- The stored cell-state tile at (p, q) is the cell step of the blocks' layer entries. -/
theorem cTile_apply (x0 x1 : FVec Ideal S512x2048 .bf16) (x2 : FVec Ideal S512x2048 .f32)
    (x3 : FVec Ideal S2048x256 .bf16) (x4 : FVec Ideal S1x256 .f32) (x5 : FVec Ideal S2048x256 .bf16)
    (x6 : FVec Ideal S1x256 .f32) (x7 : FVec Ideal S2048x256 .bf16) (x8 : FVec Ideal S1x256 .f32)
    (x9 : FVec Ideal S2048x256 .bf16) (x10 : FVec Ideal S1x256 .f32) (x11 : FVec Ideal S2048x256 .bf16)
    (x12 : FVec Ideal S1x256 .f32) (x13 : FVec Ideal S2048x256 .bf16) (x14 : FVec Ideal S1x256 .f32)
    (x21 : FVec Ideal S2048x256 .bf16) (x22 : FVec Ideal S1x256 .f32) (x23 : FVec Ideal S2048x256 .bf16)
    (x24 : FVec Ideal S1x256 .f32) (v100 : FVec Ideal S512x256 .f32) (p : Fin 512) (q : Fin 256) :
    cTile x0 x1 x2 x3 x4 x5 x6 x7 x8 x9 x10 x11 x12 x13 x14 x21 x22 x23 x24 v100 (ix2 p q)
      = cellC (lin x0 x3 x4 p q) (lin x1 x5 x6 p q) (lin x2 x7 x8 p q)
          (lin x0 x9 x10 p q) (lin x1 x11 x12 p q) (lin x2 x13 x14 p q)
          (lin x0 x21 x22 p q) (lin x1 x23 x24 p q) (v100 (ix2 p q)) := by
  unfold cTile
  rw [pay9_apply, pay4_apply, pay6_apply, pay5_apply, pay1_eq, pay2_eq, lin_pay3]
  rfl

/-- The stored hidden-state tile at (p, q) is the output gate times the tanh of the stored cell-state entry. -/
theorem hTile_apply (x0 x1 : FVec Ideal S512x2048 .bf16) (x2 : FVec Ideal S512x2048 .f32)
    (x3 : FVec Ideal S2048x256 .bf16) (x4 : FVec Ideal S1x256 .f32) (x5 : FVec Ideal S2048x256 .bf16)
    (x6 : FVec Ideal S1x256 .f32) (x7 : FVec Ideal S2048x256 .bf16) (x8 : FVec Ideal S1x256 .f32)
    (x9 : FVec Ideal S2048x256 .bf16) (x10 : FVec Ideal S1x256 .f32) (x11 : FVec Ideal S2048x256 .bf16)
    (x12 : FVec Ideal S1x256 .f32) (x13 : FVec Ideal S2048x256 .bf16) (x14 : FVec Ideal S1x256 .f32)
    (x15 : FVec Ideal S2048x256 .bf16) (x16 : FVec Ideal S1x256 .f32) (x17 : FVec Ideal S2048x256 .bf16)
    (x18 : FVec Ideal S1x256 .f32) (x19 : FVec Ideal S2048x256 .bf16) (x20 : FVec Ideal S1x256 .f32)
    (x21 : FVec Ideal S2048x256 .bf16) (x22 : FVec Ideal S1x256 .f32) (x23 : FVec Ideal S2048x256 .bf16)
    (x24 : FVec Ideal S1x256 .f32) (v100 : FVec Ideal S512x256 .f32) (p : Fin 512) (q : Fin 256) :
    hTile x0 x1 x2 x3 x4 x5 x6 x7 x8 x9 x10 x11 x12 x13 x14 x15 x16 x17 x18 x19 x20 x21 x22 x23 x24 v100 (ix2 p q)
      = cellH (lin x0 x15 x16 p q) (lin x1 x17 x18 p q) (lin x2 x19 x20 p q)
          (cTile x0 x1 x2 x3 x4 x5 x6 x7 x8 x9 x10 x11 x12 x13 x14 x21 x22 x23 x24 v100 (ix2 p q)) := by
  unfold hTile cTile
  rw [pay10_apply, pay7_apply, pay8_apply, pay1_eq, pay2_eq, lin_pay3]
  rfl

end Cert.Lstm.Tile

end
-- ==== Proof.Entry.lean ====
/-
  A tile's entry is the array's entry.

  Output tile (I0, I1) of the 16 × 8 grid covers rows I0·512 … I0·512+511 and columns I1·256 … I1·256+255. When
  each of the twenty-five loaded blocks is the block of its argument that this tile needs — rows I0·512+p of x, h
  and c; for a weight stored [out, in], its rows I1·256+q read as a column block of the transpose; entries
  I1·256+q of a bias — and the previous cell state's tile is columns I1·256+q of the c block, then the two stored
  tiles at (p, q) are the new cell and hidden states at (I0·512+p, I1·256+q): every 'lin' entry of the blocks is
  the 'dense' entry of the arrays, term by term in the same sum.
-/
import proofs.«105667_j80350248173768_2_alg».proof.Proof.Tile

noncomputable section

namespace Cert.Lstm.Tile

open Idealize.ShloMosaic Idealize.ShloMosaic.ValueIdx Cert.KernelIdeal Cert.KernelIdeal.Gen Cert.Lstm

/-- Row p of row tile I0. -/
def row (I0 : Fin 16) (p : Fin 512) : Fin 8192 := ⟨I0.val * 512 + p.val, by have := I0.isLt; have := p.isLt; omega⟩
/-- Column q of column tile I1. -/
def col (I1 : Fin 8) (q : Fin 256) : Fin 2048 := ⟨I1.val * 256 + q.val, by have := I1.isLt; have := q.isLt; omega⟩

/-- A layer's entry over blocks is the layer's entry over the arrays the blocks are cut from. -/
theorem lin_eq_dense {v : Mat 512 2048} {w : Mat 2048 256} {b : Mat 1 256} {V : Mat 8192 2048} {W : Mat 2048 2048}
    {B : Row 2048} (I0 : Fin 16) (I1 : Fin 8)
    (hv : ∀ (p : Fin 512) (k : Fin 2048), v (ix2 p k) = V (ix2 (row I0 p) k))
    (hw : ∀ (k : Fin 2048) (q : Fin 256), w (ix2 k q) = W (ix2 (col I1 q) k))
    (hb : ∀ q : Fin 256, b (ix2 (0 : Fin 1) q) = B (ix1 (col I1 q))) (p : Fin 512) (q : Fin 256) :
    lin v w b p q = dense V W B (row I0 p) (col I1 q) := by
  unfold lin dense
  exact congrArg₂ (· + ·) (Finset.sum_congr rfl fun k _ => by rw [hv p k, hw k q]) (hb q)

/-- The twenty-five loaded blocks are the blocks of the arguments that output tile (I0, I1) needs. -/
structure Blocks (A : Args) (I0 : Fin 16) (I1 : Fin 8) (x0 : FVec Ideal S512x2048 .bf16) (x1 : FVec Ideal S512x2048 .bf16) (x2 : FVec Ideal S512x2048 .f32) (x3 : FVec Ideal S2048x256 .bf16) (x4 : FVec Ideal S1x256 .f32) (x5 : FVec Ideal S2048x256 .bf16) (x6 : FVec Ideal S1x256 .f32) (x7 : FVec Ideal S2048x256 .bf16) (x8 : FVec Ideal S1x256 .f32) (x9 : FVec Ideal S2048x256 .bf16) (x10 : FVec Ideal S1x256 .f32) (x11 : FVec Ideal S2048x256 .bf16) (x12 : FVec Ideal S1x256 .f32) (x13 : FVec Ideal S2048x256 .bf16) (x14 : FVec Ideal S1x256 .f32) (x15 : FVec Ideal S2048x256 .bf16) (x16 : FVec Ideal S1x256 .f32) (x17 : FVec Ideal S2048x256 .bf16) (x18 : FVec Ideal S1x256 .f32) (x19 : FVec Ideal S2048x256 .bf16) (x20 : FVec Ideal S1x256 .f32) (x21 : FVec Ideal S2048x256 .bf16) (x22 : FVec Ideal S1x256 .f32) (x23 : FVec Ideal S2048x256 .bf16) (x24 : FVec Ideal S1x256 .f32) : Prop where
  h0 : ∀ (p : Fin 512) (k : Fin 2048), x0 (ix2 p k) = A.x (ix2 (row I0 p) k)
  h1 : ∀ (p : Fin 512) (k : Fin 2048), x1 (ix2 p k) = A.h (ix2 (row I0 p) k)
  h2 : ∀ (p : Fin 512) (k : Fin 2048), x2 (ix2 p k) = A.c (ix2 (row I0 p) k)
  h3 : ∀ (k : Fin 2048) (q : Fin 256), x3 (ix2 k q) = A.Wxi (ix2 (col I1 q) k)
  h4 : ∀ q : Fin 256, x4 (ix2 (0 : Fin 1) q) = A.bxi (ix1 (col I1 q))
  h5 : ∀ (k : Fin 2048) (q : Fin 256), x5 (ix2 k q) = A.Whi (ix2 (col I1 q) k)
  h6 : ∀ q : Fin 256, x6 (ix2 (0 : Fin 1) q) = A.bhi (ix1 (col I1 q))
  h7 : ∀ (k : Fin 2048) (q : Fin 256), x7 (ix2 k q) = A.Wci (ix2 (col I1 q) k)
  h8 : ∀ q : Fin 256, x8 (ix2 (0 : Fin 1) q) = A.bci (ix1 (col I1 q))
  h9 : ∀ (k : Fin 2048) (q : Fin 256), x9 (ix2 k q) = A.Wxf (ix2 (col I1 q) k)
  h10 : ∀ q : Fin 256, x10 (ix2 (0 : Fin 1) q) = A.bxf (ix1 (col I1 q))
  h11 : ∀ (k : Fin 2048) (q : Fin 256), x11 (ix2 k q) = A.Whf (ix2 (col I1 q) k)
  h12 : ∀ q : Fin 256, x12 (ix2 (0 : Fin 1) q) = A.bhf (ix1 (col I1 q))
  h13 : ∀ (k : Fin 2048) (q : Fin 256), x13 (ix2 k q) = A.Wcf (ix2 (col I1 q) k)
  h14 : ∀ q : Fin 256, x14 (ix2 (0 : Fin 1) q) = A.bcf (ix1 (col I1 q))
  h15 : ∀ (k : Fin 2048) (q : Fin 256), x15 (ix2 k q) = A.Wxo (ix2 (col I1 q) k)
  h16 : ∀ q : Fin 256, x16 (ix2 (0 : Fin 1) q) = A.bxo (ix1 (col I1 q))
  h17 : ∀ (k : Fin 2048) (q : Fin 256), x17 (ix2 k q) = A.Who (ix2 (col I1 q) k)
  h18 : ∀ q : Fin 256, x18 (ix2 (0 : Fin 1) q) = A.bho (ix1 (col I1 q))
  h19 : ∀ (k : Fin 2048) (q : Fin 256), x19 (ix2 k q) = A.Wco (ix2 (col I1 q) k)
  h20 : ∀ q : Fin 256, x20 (ix2 (0 : Fin 1) q) = A.bco (ix1 (col I1 q))
  h21 : ∀ (k : Fin 2048) (q : Fin 256), x21 (ix2 k q) = A.Wxg (ix2 (col I1 q) k)
  h22 : ∀ q : Fin 256, x22 (ix2 (0 : Fin 1) q) = A.bxg (ix1 (col I1 q))
  h23 : ∀ (k : Fin 2048) (q : Fin 256), x23 (ix2 k q) = A.Whg (ix2 (col I1 q) k)
  h24 : ∀ q : Fin 256, x24 (ix2 (0 : Fin 1) q) = A.bhg (ix1 (col I1 q))

/-- The stored cell-state tile at (p, q) is the new cell state at (I0·512+p, I1·256+q). -/
theorem cTile_entry {A : Args} {I0 : Fin 16} {I1 : Fin 8} {x0 x1 : FVec Ideal S512x2048 .bf16} {x2 : FVec Ideal S512x2048 .f32}
    {x3 : FVec Ideal S2048x256 .bf16} {x4 : FVec Ideal S1x256 .f32} {x5 : FVec Ideal S2048x256 .bf16} {x6 : FVec Ideal S1x256 .f32} {x7 : FVec Ideal S2048x256 .bf16} {x8 : FVec Ideal S1x256 .f32} {x9 : FVec Ideal S2048x256 .bf16} {x10 : FVec Ideal S1x256 .f32} {x11 : FVec Ideal S2048x256 .bf16} {x12 : FVec Ideal S1x256 .f32} {x13 : FVec Ideal S2048x256 .bf16} {x14 : FVec Ideal S1x256 .f32} {x15 : FVec Ideal S2048x256 .bf16} {x16 : FVec Ideal S1x256 .f32} {x17 : FVec Ideal S2048x256 .bf16} {x18 : FVec Ideal S1x256 .f32} {x19 : FVec Ideal S2048x256 .bf16} {x20 : FVec Ideal S1x256 .f32} {x21 : FVec Ideal S2048x256 .bf16} {x22 : FVec Ideal S1x256 .f32} {x23 : FVec Ideal S2048x256 .bf16} {x24 : FVec Ideal S1x256 .f32}
    (B : Blocks A I0 I1 x0 x1 x2 x3 x4 x5 x6 x7 x8 x9 x10 x11 x12 x13 x14 x15 x16 x17 x18 x19 x20 x21 x22 x23 x24) (v100 : FVec Ideal S512x256 .f32)
    (hv : ∀ (p : Fin 512) (q : Fin 256), v100 (ix2 p q) = x2 (ix2 p (col I1 q))) (p : Fin 512) (q : Fin 256) :
    cTile x0 x1 x2 x3 x4 x5 x6 x7 x8 x9 x10 x11 x12 x13 x14 x21 x22 x23 x24 v100 (ix2 p q) = A.cNew (row I0 p) (col I1 q) := by
  rw [cTile_apply, lin_eq_dense I0 I1 B.h0 B.h3 B.h4, lin_eq_dense I0 I1 B.h1 B.h5 B.h6, lin_eq_dense I0 I1 B.h2 B.h7 B.h8,
    lin_eq_dense I0 I1 B.h0 B.h9 B.h10, lin_eq_dense I0 I1 B.h1 B.h11 B.h12, lin_eq_dense I0 I1 B.h2 B.h13 B.h14,
    lin_eq_dense I0 I1 B.h0 B.h21 B.h22, lin_eq_dense I0 I1 B.h1 B.h23 B.h24, hv p q, B.h2 p (col I1 q)]
  rfl

/-- The stored hidden-state tile at (p, q) is the new hidden state at (I0·512+p, I1·256+q). -/
theorem hTile_entry {A : Args} {I0 : Fin 16} {I1 : Fin 8} {x0 x1 : FVec Ideal S512x2048 .bf16} {x2 : FVec Ideal S512x2048 .f32}
    {x3 : FVec Ideal S2048x256 .bf16} {x4 : FVec Ideal S1x256 .f32} {x5 : FVec Ideal S2048x256 .bf16} {x6 : FVec Ideal S1x256 .f32} {x7 : FVec Ideal S2048x256 .bf16} {x8 : FVec Ideal S1x256 .f32} {x9 : FVec Ideal S2048x256 .bf16} {x10 : FVec Ideal S1x256 .f32} {x11 : FVec Ideal S2048x256 .bf16} {x12 : FVec Ideal S1x256 .f32} {x13 : FVec Ideal S2048x256 .bf16} {x14 : FVec Ideal S1x256 .f32} {x15 : FVec Ideal S2048x256 .bf16} {x16 : FVec Ideal S1x256 .f32} {x17 : FVec Ideal S2048x256 .bf16} {x18 : FVec Ideal S1x256 .f32} {x19 : FVec Ideal S2048x256 .bf16} {x20 : FVec Ideal S1x256 .f32} {x21 : FVec Ideal S2048x256 .bf16} {x22 : FVec Ideal S1x256 .f32} {x23 : FVec Ideal S2048x256 .bf16} {x24 : FVec Ideal S1x256 .f32}
    (B : Blocks A I0 I1 x0 x1 x2 x3 x4 x5 x6 x7 x8 x9 x10 x11 x12 x13 x14 x15 x16 x17 x18 x19 x20 x21 x22 x23 x24) (v100 : FVec Ideal S512x256 .f32)
    (hv : ∀ (p : Fin 512) (q : Fin 256), v100 (ix2 p q) = x2 (ix2 p (col I1 q))) (p : Fin 512) (q : Fin 256) :
    hTile x0 x1 x2 x3 x4 x5 x6 x7 x8 x9 x10 x11 x12 x13 x14 x15 x16 x17 x18 x19 x20 x21 x22 x23 x24 v100 (ix2 p q) = A.hNew (row I0 p) (col I1 q) := by
  rw [hTile_apply, cTile_entry B v100 hv p q, lin_eq_dense I0 I1 B.h0 B.h15 B.h16, lin_eq_dense I0 I1 B.h1 B.h17 B.h18,
    lin_eq_dense I0 I1 B.h2 B.h19 B.h20]
  rfl

end Cert.Lstm.Tile

end
-- ==== Proof.Staged.lean ====
/-
  What the kernel's windows hold, in terms of the arguments.

  Before the kernel runs, the host casts x and h to a narrower float format (the identity on the extended reals),
  transposes each weight and casts it likewise, and lifts each bias [2048] to a row [1, 2048]. The 16 × 8 grid's point
  t has output tile (I0, I1) = the block index of the output windows; windows 0–2 follow I0 along the rows and sit at
  column block 0, windows 3–24 sit at row block 0 and follow I1 along the columns, and the body's extra load from the
  c block starts at column I1·256. All of this is arithmetic on the printed index maps, decided once over the 128 points.
  So the block each window stages at t is the block of its argument that tile (I0, I1) needs ('Tile.Blocks').
-/
import proofs.«105667_j80350248173768_2_alg».proof.Proof.Gen.KernelIdeal.Frame.Runs
import proofs.«105667_j80350248173768_2_alg».proof.Proof.Entry
import Idealize.ShloMosaic.Lib.StableHlo.Run
import Idealize.ShloMosaic.Lib.ValueLayout

noncomputable section

namespace Cert.Lstm.Staged

open Idealize.ShloMosaic Idealize.ShloMosaic.TcCoe Idealize.ShloMosaic.ValueIdx Idealize.ShloMosaic.StableHlo Idealize.SL.Sem
open Cert.KernelIdeal Cert.KernelIdeal.Gen Cert.Lstm Cert.Lstm.Tile

variable (m : (ℓ : Loc nD τ sig) → Buf (Elt Ideal) ℓ)

/-- The cell step's arguments, read off core c's launch memory. -/
def args (c : Dev nD) : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21),
   m ((c : Thread nD τ).loc main_arg22),
   m ((c : Thread nD τ).loc main_arg23),
   m ((c : Thread nD τ).loc main_arg24)⟩

/-! ## The printed index maps, over the grid -/

/-- The output windows' block index is a tile of the 16 × 8 grid, and both outputs use the same one. -/
theorem out_facts : ∀ t : Fin cfg0.N, win0_25.index t (0 : Fin 2) < 16 ∧ win0_25.index t (1 : Fin 2) < 8
    ∧ win0_26.index t (0 : Fin 2) = win0_25.index t (0 : Fin 2) ∧ win0_26.index t (1 : Fin 2) = win0_25.index t (1 : Fin 2) :=
  (by decide +kernel : ∀ t : Fin grid0.N, _)

/-- The row-block windows (x, h, c) follow the output's row block and stay at column block 0. -/
theorem row_facts : ∀ t : Fin cfg0.N,
    win0_0.index t (0 : Fin 2) = win0_25.index t (0 : Fin 2) ∧ win0_0.index t (1 : Fin 2) = 0
    ∧ win0_1.index t (0 : Fin 2) = win0_25.index t (0 : Fin 2) ∧ win0_1.index t (1 : Fin 2) = 0
    ∧ win0_2.index t (0 : Fin 2) = win0_25.index t (0 : Fin 2) ∧ win0_2.index t (1 : Fin 2) = 0 :=
  (by decide +kernel : ∀ t : Fin grid0.N, _)

/-- The column-block windows 3–8 stay at row block 0 and follow the output's column block. -/
theorem col_facts0 : ∀ t : Fin cfg0.N,
    win0_3.index t (0 : Fin 2) = 0 ∧ win0_3.index t (1 : Fin 2) = win0_25.index t (1 : Fin 2)
    ∧ win0_4.index t (0 : Fin 2) = 0 ∧ win0_4.index t (1 : Fin 2) = win0_25.index t (1 : Fin 2)
    ∧ win0_5.index t (0 : Fin 2) = 0 ∧ win0_5.index t (1 : Fin 2) = win0_25.index t (1 : Fin 2)
    ∧ win0_6.index t (0 : Fin 2) = 0 ∧ win0_6.index t (1 : Fin 2) = win0_25.index t (1 : Fin 2)
    ∧ win0_7.index t (0 : Fin 2) = 0 ∧ win0_7.index t (1 : Fin 2) = win0_25.index t (1 : Fin 2)
    ∧ win0_8.index t (0 : Fin 2) = 0 ∧ win0_8.index t (1 : Fin 2) = win0_25.index t (1 : Fin 2) :=
  (by decide +kernel : ∀ t : Fin grid0.N, _)

/-- The column-block windows 9–14 stay at row block 0 and follow the output's column block. -/
theorem col_facts1 : ∀ t : Fin cfg0.N,
    win0_9.index t (0 : Fin 2) = 0 ∧ win0_9.index t (1 : Fin 2) = win0_25.index t (1 : Fin 2)
    ∧ win0_10.index t (0 : Fin 2) = 0 ∧ win0_10.index t (1 : Fin 2) = win0_25.index t (1 : Fin 2)
    ∧ win0_11.index t (0 : Fin 2) = 0 ∧ win0_11.index t (1 : Fin 2) = win0_25.index t (1 : Fin 2)
    ∧ win0_12.index t (0 : Fin 2) = 0 ∧ win0_12.index t (1 : Fin 2) = win0_25.index t (1 : Fin 2)
    ∧ win0_13.index t (0 : Fin 2) = 0 ∧ win0_13.index t (1 : Fin 2) = win0_25.index t (1 : Fin 2)
    ∧ win0_14.index t (0 : Fin 2) = 0 ∧ win0_14.index t (1 : Fin 2) = win0_25.index t (1 : Fin 2) :=
  (by decide +kernel : ∀ t : Fin grid0.N, _)

/-- The column-block windows 15–20 stay at row block 0 and follow the output's column block. -/
theorem col_facts2 : ∀ t : Fin cfg0.N,
    win0_15.index t (0 : Fin 2) = 0 ∧ win0_15.index t (1 : Fin 2) = win0_25.index t (1 : Fin 2)
    ∧ win0_16.index t (0 : Fin 2) = 0 ∧ win0_16.index t (1 : Fin 2) = win0_25.index t (1 : Fin 2)
    ∧ win0_17.index t (0 : Fin 2) = 0 ∧ win0_17.index t (1 : Fin 2) = win0_25.index t (1 : Fin 2)
    ∧ win0_18.index t (0 : Fin 2) = 0 ∧ win0_18.index t (1 : Fin 2) = win0_25.index t (1 : Fin 2)
    ∧ win0_19.index t (0 : Fin 2) = 0 ∧ win0_19.index t (1 : Fin 2) = win0_25.index t (1 : Fin 2)
    ∧ win0_20.index t (0 : Fin 2) = 0 ∧ win0_20.index t (1 : Fin 2) = win0_25.index t (1 : Fin 2) :=
  (by decide +kernel : ∀ t : Fin grid0.N, _)

/-- The column-block windows 21–24 stay at row block 0 and follow the output's column block. -/
theorem col_facts3 : ∀ t : Fin cfg0.N,
    win0_21.index t (0 : Fin 2) = 0 ∧ win0_21.index t (1 : Fin 2) = win0_25.index t (1 : Fin 2)
    ∧ win0_22.index t (0 : Fin 2) = 0 ∧ win0_22.index t (1 : Fin 2) = win0_25.index t (1 : Fin 2)
    ∧ win0_23.index t (0 : Fin 2) = 0 ∧ win0_23.index t (1 : Fin 2) = win0_25.index t (1 : Fin 2)
    ∧ win0_24.index t (0 : Fin 2) = 0 ∧ win0_24.index t (1 : Fin 2) = win0_25.index t (1 : Fin 2) :=
  (by decide +kernel : ∀ t : Fin grid0.N, _)

/-- The body's extra load from the c block starts at row 0 and at the output's column block times 256. -/
theorem off_facts : ∀ t : Fin cfg0.N, k0_off1 (grid0.coords t) (0 : Fin 2) = 0
    ∧ k0_off1 (grid0.coords t) (1 : Fin 2) = win0_25.index t (1 : Fin 2) * 256 :=
  (by decide +kernel : ∀ t : Fin grid0.N, _)

/-- The row tile of point t. -/
def I0 (t : Fin cfg0.N) : Fin 16 := ⟨win0_25.index t (0 : Fin 2), (out_facts t).1⟩
/-- The column tile of point t. -/
def I1 (t : Fin cfg0.N) : Fin 8 := ⟨win0_25.index t (1 : Fin 2), (out_facts t).2.1⟩

/-! ## What the staged arrays hold when the kernel starts -/

/-- x and h reach the kernel through a change of float format only. -/
theorem V_x (c : Dev nD) (i : S8192x2048.Idx) : (V m c main_v33 : S8192x2048.Idx → EReal) i = (m ((c : Thread nD τ).loc main_arg0)) i := by
  have e : V m c main_v33 = (truncf (F := Ideal) .bf16 (m ((c : Thread nD τ).loc main_arg0)) bitsLt_bf16_f32 : S8192x2048.Idx → EReal) := by
    dsimp only [V, hostOps0]
    after_results_simp <;> rfl
  exact congrFun e i

theorem V_h (c : Dev nD) (i : S8192x2048.Idx) : (V m c main_v34 : S8192x2048.Idx → EReal) i = (m ((c : Thread nD τ).loc main_arg1)) i := by
  have e : V m c main_v34 = (truncf (F := Ideal) .bf16 (m ((c : Thread nD τ).loc main_arg1)) bitsLt_bf16_f32 : S8192x2048.Idx → EReal) := by
    dsimp only [V, hostOps0]
    after_results_simp <;> rfl
  exact congrFun e i

/-- c reaches the kernel as launched. -/
theorem V_c (c : Dev nD) (i : S8192x2048.Idx) : (V m c main_arg2 : S8192x2048.Idx → EReal) i = (m ((c : Thread nD τ).loc main_arg2)) i :=
  congrFun (V_main_arg2 m c) i

/-- Window 3's array is argument 3 transposed: entry (k, j) is the weight's entry (j, k). -/
theorem V_w3 (c : Dev nD) (k j : Fin 2048) :
    (V m c main_v1 : S2048x2048.Idx → EReal) (ix2 k j) = (m ((c : Thread nD τ).loc main_arg3)) (ix2 j k) := by
  have e : V m c main_v1 = (truncf (F := Ideal) .bf16 (transpose S2048x2048 [1, 0] (m ((c : Thread nD τ).loc main_arg3))
      transposes_S2048x2048_S2048x2048_1_0) bitsLt_bf16_f32 : S2048x2048.Idx → EReal) := by
    dsimp only [V, hostOps0]
    after_results_simp <;> rfl
  exact (congrFun e (ix2 k j)).trans (transpose_ix2_apply (m ((c : Thread nD τ).loc main_arg3)) transposes_S2048x2048_S2048x2048_1_0 k j)

/-- Window 4's array is argument 4 lifted to a row: entry (0, j) is the bias's entry j. -/
theorem V_w4 (c : Dev nD) (u : Fin 1) (j : Fin 2048) :
    (V m c main_v22 : S1x2048.Idx → EReal) (ix2 u j) = (m ((c : Thread nD τ).loc main_arg4)) (ix1 j) := by
  have e : V m c main_v22 = (shapeCast S1x2048 (m ((c : Thread nD τ).loc main_arg4)) shapeCasts_S2048_S1x2048 : S1x2048.Idx → EReal) := by
    dsimp only [V, hostOps0]
    after_results_simp <;> rfl
  exact (congrFun e (ix2 u j)).trans (shapeCast_a_1a_apply (m ((c : Thread nD τ).loc main_arg4)) shapeCasts_S2048_S1x2048 u j)

/-- Window 5's array is argument 5 transposed: entry (k, j) is the weight's entry (j, k). -/
theorem V_w5 (c : Dev nD) (k j : Fin 2048) :
    (V m c main_v3 : S2048x2048.Idx → EReal) (ix2 k j) = (m ((c : Thread nD τ).loc main_arg5)) (ix2 j k) := by
  have e : V m c main_v3 = (truncf (F := Ideal) .bf16 (transpose S2048x2048 [1, 0] (m ((c : Thread nD τ).loc main_arg5))
      transposes_S2048x2048_S2048x2048_1_0) bitsLt_bf16_f32 : S2048x2048.Idx → EReal) := by
    dsimp only [V, hostOps0]
    after_results_simp <;> rfl
  exact (congrFun e (ix2 k j)).trans (transpose_ix2_apply (m ((c : Thread nD τ).loc main_arg5)) transposes_S2048x2048_S2048x2048_1_0 k j)

/-- Window 6's array is argument 6 lifted to a row: entry (0, j) is the bias's entry j. -/
theorem V_w6 (c : Dev nD) (u : Fin 1) (j : Fin 2048) :
    (V m c main_v23 : S1x2048.Idx → EReal) (ix2 u j) = (m ((c : Thread nD τ).loc main_arg6)) (ix1 j) := by
  have e : V m c main_v23 = (shapeCast S1x2048 (m ((c : Thread nD τ).loc main_arg6)) shapeCasts_S2048_S1x2048 : S1x2048.Idx → EReal) := by
    dsimp only [V, hostOps0]
    after_results_simp <;> rfl
  exact (congrFun e (ix2 u j)).trans (shapeCast_a_1a_apply (m ((c : Thread nD τ).loc main_arg6)) shapeCasts_S2048_S1x2048 u j)

/-- Window 7's array is argument 7 transposed: entry (k, j) is the weight's entry (j, k). -/
theorem V_w7 (c : Dev nD) (k j : Fin 2048) :
    (V m c main_v5 : S2048x2048.Idx → EReal) (ix2 k j) = (m ((c : Thread nD τ).loc main_arg7)) (ix2 j k) := by
  have e : V m c main_v5 = (truncf (F := Ideal) .bf16 (transpose S2048x2048 [1, 0] (m ((c : Thread nD τ).loc main_arg7))
      transposes_S2048x2048_S2048x2048_1_0) bitsLt_bf16_f32 : S2048x2048.Idx → EReal) := by
    dsimp only [V, hostOps0]
    after_results_simp <;> rfl
  exact (congrFun e (ix2 k j)).trans (transpose_ix2_apply (m ((c : Thread nD τ).loc main_arg7)) transposes_S2048x2048_S2048x2048_1_0 k j)

/-- Window 8's array is argument 8 lifted to a row: entry (0, j) is the bias's entry j. -/
theorem V_w8 (c : Dev nD) (u : Fin 1) (j : Fin 2048) :
    (V m c main_v24 : S1x2048.Idx → EReal) (ix2 u j) = (m ((c : Thread nD τ).loc main_arg8)) (ix1 j) := by
  have e : V m c main_v24 = (shapeCast S1x2048 (m ((c : Thread nD τ).loc main_arg8)) shapeCasts_S2048_S1x2048 : S1x2048.Idx → EReal) := by
    dsimp only [V, hostOps0]
    after_results_simp <;> rfl
  exact (congrFun e (ix2 u j)).trans (shapeCast_a_1a_apply (m ((c : Thread nD τ).loc main_arg8)) shapeCasts_S2048_S1x2048 u j)

/-- Window 9's array is argument 9 transposed: entry (k, j) is the weight's entry (j, k). -/
theorem V_w9 (c : Dev nD) (k j : Fin 2048) :
    (V m c main_v7 : S2048x2048.Idx → EReal) (ix2 k j) = (m ((c : Thread nD τ).loc main_arg9)) (ix2 j k) := by
  have e : V m c main_v7 = (truncf (F := Ideal) .bf16 (transpose S2048x2048 [1, 0] (m ((c : Thread nD τ).loc main_arg9))
      transposes_S2048x2048_S2048x2048_1_0) bitsLt_bf16_f32 : S2048x2048.Idx → EReal) := by
    dsimp only [V, hostOps0]
    after_results_simp <;> rfl
  exact (congrFun e (ix2 k j)).trans (transpose_ix2_apply (m ((c : Thread nD τ).loc main_arg9)) transposes_S2048x2048_S2048x2048_1_0 k j)

/-- Window 10's array is argument 10 lifted to a row: entry (0, j) is the bias's entry j. -/
theorem V_w10 (c : Dev nD) (u : Fin 1) (j : Fin 2048) :
    (V m c main_v25 : S1x2048.Idx → EReal) (ix2 u j) = (m ((c : Thread nD τ).loc main_arg10)) (ix1 j) := by
  have e : V m c main_v25 = (shapeCast S1x2048 (m ((c : Thread nD τ).loc main_arg10)) shapeCasts_S2048_S1x2048 : S1x2048.Idx → EReal) := by
    dsimp only [V, hostOps0]
    after_results_simp <;> rfl
  exact (congrFun e (ix2 u j)).trans (shapeCast_a_1a_apply (m ((c : Thread nD τ).loc main_arg10)) shapeCasts_S2048_S1x2048 u j)

/-- Window 11's array is argument 11 transposed: entry (k, j) is the weight's entry (j, k). -/
theorem V_w11 (c : Dev nD) (k j : Fin 2048) :
    (V m c main_v9 : S2048x2048.Idx → EReal) (ix2 k j) = (m ((c : Thread nD τ).loc main_arg11)) (ix2 j k) := by
  have e : V m c main_v9 = (truncf (F := Ideal) .bf16 (transpose S2048x2048 [1, 0] (m ((c : Thread nD τ).loc main_arg11))
      transposes_S2048x2048_S2048x2048_1_0) bitsLt_bf16_f32 : S2048x2048.Idx → EReal) := by
    dsimp only [V, hostOps0]
    after_results_simp <;> rfl
  exact (congrFun e (ix2 k j)).trans (transpose_ix2_apply (m ((c : Thread nD τ).loc main_arg11)) transposes_S2048x2048_S2048x2048_1_0 k j)

/-- Window 12's array is argument 12 lifted to a row: entry (0, j) is the bias's entry j. -/
theorem V_w12 (c : Dev nD) (u : Fin 1) (j : Fin 2048) :
    (V m c main_v26 : S1x2048.Idx → EReal) (ix2 u j) = (m ((c : Thread nD τ).loc main_arg12)) (ix1 j) := by
  have e : V m c main_v26 = (shapeCast S1x2048 (m ((c : Thread nD τ).loc main_arg12)) shapeCasts_S2048_S1x2048 : S1x2048.Idx → EReal) := by
    dsimp only [V, hostOps0]
    after_results_simp <;> rfl
  exact (congrFun e (ix2 u j)).trans (shapeCast_a_1a_apply (m ((c : Thread nD τ).loc main_arg12)) shapeCasts_S2048_S1x2048 u j)

/-- Window 13's array is argument 13 transposed: entry (k, j) is the weight's entry (j, k). -/
theorem V_w13 (c : Dev nD) (k j : Fin 2048) :
    (V m c main_v11 : S2048x2048.Idx → EReal) (ix2 k j) = (m ((c : Thread nD τ).loc main_arg13)) (ix2 j k) := by
  have e : V m c main_v11 = (truncf (F := Ideal) .bf16 (transpose S2048x2048 [1, 0] (m ((c : Thread nD τ).loc main_arg13))
      transposes_S2048x2048_S2048x2048_1_0) bitsLt_bf16_f32 : S2048x2048.Idx → EReal) := by
    dsimp only [V, hostOps0]
    after_results_simp <;> rfl
  exact (congrFun e (ix2 k j)).trans (transpose_ix2_apply (m ((c : Thread nD τ).loc main_arg13)) transposes_S2048x2048_S2048x2048_1_0 k j)

/-- Window 14's array is argument 14 lifted to a row: entry (0, j) is the bias's entry j. -/
theorem V_w14 (c : Dev nD) (u : Fin 1) (j : Fin 2048) :
    (V m c main_v27 : S1x2048.Idx → EReal) (ix2 u j) = (m ((c : Thread nD τ).loc main_arg14)) (ix1 j) := by
  have e : V m c main_v27 = (shapeCast S1x2048 (m ((c : Thread nD τ).loc main_arg14)) shapeCasts_S2048_S1x2048 : S1x2048.Idx → EReal) := by
    dsimp only [V, hostOps0]
    after_results_simp <;> rfl
  exact (congrFun e (ix2 u j)).trans (shapeCast_a_1a_apply (m ((c : Thread nD τ).loc main_arg14)) shapeCasts_S2048_S1x2048 u j)

/-- Window 15's array is argument 15 transposed: entry (k, j) is the weight's entry (j, k). -/
theorem V_w15 (c : Dev nD) (k j : Fin 2048) :
    (V m c main_v13 : S2048x2048.Idx → EReal) (ix2 k j) = (m ((c : Thread nD τ).loc main_arg15)) (ix2 j k) := by
  have e : V m c main_v13 = (truncf (F := Ideal) .bf16 (transpose S2048x2048 [1, 0] (m ((c : Thread nD τ).loc main_arg15))
      transposes_S2048x2048_S2048x2048_1_0) bitsLt_bf16_f32 : S2048x2048.Idx → EReal) := by
    dsimp only [V, hostOps0]
    after_results_simp <;> rfl
  exact (congrFun e (ix2 k j)).trans (transpose_ix2_apply (m ((c : Thread nD τ).loc main_arg15)) transposes_S2048x2048_S2048x2048_1_0 k j)

/-- Window 16's array is argument 16 lifted to a row: entry (0, j) is the bias's entry j. -/
theorem V_w16 (c : Dev nD) (u : Fin 1) (j : Fin 2048) :
    (V m c main_v28 : S1x2048.Idx → EReal) (ix2 u j) = (m ((c : Thread nD τ).loc main_arg16)) (ix1 j) := by
  have e : V m c main_v28 = (shapeCast S1x2048 (m ((c : Thread nD τ).loc main_arg16)) shapeCasts_S2048_S1x2048 : S1x2048.Idx → EReal) := by
    dsimp only [V, hostOps0]
    after_results_simp <;> rfl
  exact (congrFun e (ix2 u j)).trans (shapeCast_a_1a_apply (m ((c : Thread nD τ).loc main_arg16)) shapeCasts_S2048_S1x2048 u j)

/-- Window 17's array is argument 17 transposed: entry (k, j) is the weight's entry (j, k). -/
theorem V_w17 (c : Dev nD) (k j : Fin 2048) :
    (V m c main_v15 : S2048x2048.Idx → EReal) (ix2 k j) = (m ((c : Thread nD τ).loc main_arg17)) (ix2 j k) := by
  have e : V m c main_v15 = (truncf (F := Ideal) .bf16 (transpose S2048x2048 [1, 0] (m ((c : Thread nD τ).loc main_arg17))
      transposes_S2048x2048_S2048x2048_1_0) bitsLt_bf16_f32 : S2048x2048.Idx → EReal) := by
    dsimp only [V, hostOps0]
    after_results_simp <;> rfl
  exact (congrFun e (ix2 k j)).trans (transpose_ix2_apply (m ((c : Thread nD τ).loc main_arg17)) transposes_S2048x2048_S2048x2048_1_0 k j)

/-- Window 18's array is argument 18 lifted to a row: entry (0, j) is the bias's entry j. -/
theorem V_w18 (c : Dev nD) (u : Fin 1) (j : Fin 2048) :
    (V m c main_v29 : S1x2048.Idx → EReal) (ix2 u j) = (m ((c : Thread nD τ).loc main_arg18)) (ix1 j) := by
  have e : V m c main_v29 = (shapeCast S1x2048 (m ((c : Thread nD τ).loc main_arg18)) shapeCasts_S2048_S1x2048 : S1x2048.Idx → EReal) := by
    dsimp only [V, hostOps0]
    after_results_simp <;> rfl
  exact (congrFun e (ix2 u j)).trans (shapeCast_a_1a_apply (m ((c : Thread nD τ).loc main_arg18)) shapeCasts_S2048_S1x2048 u j)

/-- Window 19's array is argument 19 transposed: entry (k, j) is the weight's entry (j, k). -/
theorem V_w19 (c : Dev nD) (k j : Fin 2048) :
    (V m c main_v17 : S2048x2048.Idx → EReal) (ix2 k j) = (m ((c : Thread nD τ).loc main_arg19)) (ix2 j k) := by
  have e : V m c main_v17 = (truncf (F := Ideal) .bf16 (transpose S2048x2048 [1, 0] (m ((c : Thread nD τ).loc main_arg19))
      transposes_S2048x2048_S2048x2048_1_0) bitsLt_bf16_f32 : S2048x2048.Idx → EReal) := by
    dsimp only [V, hostOps0]
    after_results_simp <;> rfl
  exact (congrFun e (ix2 k j)).trans (transpose_ix2_apply (m ((c : Thread nD τ).loc main_arg19)) transposes_S2048x2048_S2048x2048_1_0 k j)

/-- Window 20's array is argument 20 lifted to a row: entry (0, j) is the bias's entry j. -/
theorem V_w20 (c : Dev nD) (u : Fin 1) (j : Fin 2048) :
    (V m c main_v30 : S1x2048.Idx → EReal) (ix2 u j) = (m ((c : Thread nD τ).loc main_arg20)) (ix1 j) := by
  have e : V m c main_v30 = (shapeCast S1x2048 (m ((c : Thread nD τ).loc main_arg20)) shapeCasts_S2048_S1x2048 : S1x2048.Idx → EReal) := by
    dsimp only [V, hostOps0]
    after_results_simp <;> rfl
  exact (congrFun e (ix2 u j)).trans (shapeCast_a_1a_apply (m ((c : Thread nD τ).loc main_arg20)) shapeCasts_S2048_S1x2048 u j)

/-- Window 21's array is argument 21 transposed: entry (k, j) is the weight's entry (j, k). -/
theorem V_w21 (c : Dev nD) (k j : Fin 2048) :
    (V m c main_v19 : S2048x2048.Idx → EReal) (ix2 k j) = (m ((c : Thread nD τ).loc main_arg21)) (ix2 j k) := by
  have e : V m c main_v19 = (truncf (F := Ideal) .bf16 (transpose S2048x2048 [1, 0] (m ((c : Thread nD τ).loc main_arg21))
      transposes_S2048x2048_S2048x2048_1_0) bitsLt_bf16_f32 : S2048x2048.Idx → EReal) := by
    dsimp only [V, hostOps0]
    after_results_simp <;> rfl
  exact (congrFun e (ix2 k j)).trans (transpose_ix2_apply (m ((c : Thread nD τ).loc main_arg21)) transposes_S2048x2048_S2048x2048_1_0 k j)

/-- Window 22's array is argument 22 lifted to a row: entry (0, j) is the bias's entry j. -/
theorem V_w22 (c : Dev nD) (u : Fin 1) (j : Fin 2048) :
    (V m c main_v31 : S1x2048.Idx → EReal) (ix2 u j) = (m ((c : Thread nD τ).loc main_arg22)) (ix1 j) := by
  have e : V m c main_v31 = (shapeCast S1x2048 (m ((c : Thread nD τ).loc main_arg22)) shapeCasts_S2048_S1x2048 : S1x2048.Idx → EReal) := by
    dsimp only [V, hostOps0]
    after_results_simp <;> rfl
  exact (congrFun e (ix2 u j)).trans (shapeCast_a_1a_apply (m ((c : Thread nD τ).loc main_arg22)) shapeCasts_S2048_S1x2048 u j)

/-- Window 23's array is argument 23 transposed: entry (k, j) is the weight's entry (j, k). -/
theorem V_w23 (c : Dev nD) (k j : Fin 2048) :
    (V m c main_v21 : S2048x2048.Idx → EReal) (ix2 k j) = (m ((c : Thread nD τ).loc main_arg23)) (ix2 j k) := by
  have e : V m c main_v21 = (truncf (F := Ideal) .bf16 (transpose S2048x2048 [1, 0] (m ((c : Thread nD τ).loc main_arg23))
      transposes_S2048x2048_S2048x2048_1_0) bitsLt_bf16_f32 : S2048x2048.Idx → EReal) := by
    dsimp only [V, hostOps0]
    after_results_simp <;> rfl
  exact (congrFun e (ix2 k j)).trans (transpose_ix2_apply (m ((c : Thread nD τ).loc main_arg23)) transposes_S2048x2048_S2048x2048_1_0 k j)

/-- Window 24's array is argument 24 lifted to a row: entry (0, j) is the bias's entry j. -/
theorem V_w24 (c : Dev nD) (u : Fin 1) (j : Fin 2048) :
    (V m c main_v32 : S1x2048.Idx → EReal) (ix2 u j) = (m ((c : Thread nD τ).loc main_arg24)) (ix1 j) := by
  have e : V m c main_v32 = (shapeCast S1x2048 (m ((c : Thread nD τ).loc main_arg24)) shapeCasts_S2048_S1x2048 : S1x2048.Idx → EReal) := by
    dsimp only [V, hostOps0]
    after_results_simp <;> rfl
  exact (congrFun e (ix2 u j)).trans (shapeCast_a_1a_apply (m ((c : Thread nD τ).loc main_arg24)) shapeCasts_S2048_S1x2048 u j)

/-! ## The body's extra load -/

/-- The body's extra load from the c block reads columns I1·256 + q of it. -/
theorem slice_apply (t : Fin cfg0.N) (x2 : Vec Ideal S512x2048 .f32)
    (inb : ∀ a, k0_off1 (grid0.coords t) a + S512x256.size a ≤ S512x2048.size a) (p : Fin 512) (q : Fin 256) :
    View.ld (Val := Elt Ideal) x2 (Rect.unit (k0_off1 (grid0.coords t)) S512x256.size inb) (ix2 p q)
      = x2 (ix2 p (col (I1 t) q)) := by
  show x2 _ = x2 _
  refine congrArg x2 (funext fun a => Fin.ext ?_)
  match a with
  | ⟨0, _⟩ =>
    show k0_off1 (grid0.coords t) (0 : Fin 2) + 1 * p.val = p.val
    rw [(off_facts t).1]; omega
  | ⟨1, _⟩ =>
    show k0_off1 (grid0.coords t) (1 : Fin 2) + 1 * q.val = win0_25.index t (1 : Fin 2) * 256 + q.val
    rw [(off_facts t).2]; omega

end Cert.Lstm.Staged

end
-- ==== Proof.BlocksA.lean ====
/-
  The blocks windows 0–6 stage at a grid point, as blocks of their arguments: a block's entry sits in
  its array, on each axis, at block index × block size + its own coordinate; the row-block windows follow the output's
  row tile, the column-block windows its column tile (Staged.lean), and the staged array is its argument cast,
  transposed or lifted to a row.
-/
import proofs.«105667_j80350248173768_2_alg».proof.Proof.Staged

noncomputable section

namespace Cert.Lstm.Staged

open Idealize.ShloMosaic Idealize.ShloMosaic.TcCoe Idealize.ShloMosaic.ValueIdx Idealize.SL.Sem
open Cert.KernelIdeal Cert.KernelIdeal.Gen Cert.Lstm Cert.Lstm.Tile

variable (m : (ℓ : Loc nD τ sig) → Buf (Elt Ideal) ℓ)

/-- Window 0's block at point t: rows I0·512 + p of argument 0. -/
theorem blk0 (c : Dev nD) (t : Fin cfg0.N) (p : Fin 512) (k : Fin 2048) :
    (iblk m c 0 t : Vec Ideal S512x2048 .bf16) (ix2 p k) = (m ((c : Thread nD τ).loc main_arg0)) (ix2 (row (I0 t) p) k) := by
  unfold iblk
  rw [View.read_apply]
  show V m c main_v33 (((cfg0.win 0).blk t).view.emb (ix2 p k)) = (m ((c : Thread nD τ).loc main_arg0)) (ix2 (row (I0 t) p) k)
  have he : ((cfg0.win 0).blk t).view.emb (ix2 p k) = ix2 (row (I0 t) p) k := funext fun a => Fin.ext (by
    match a with
    | ⟨0, _⟩ =>
      show win0_0.index t (0 : Fin 2) * 512 + 1 * p.val = win0_25.index t (0 : Fin 2) * 512 + p.val
      rw [(row_facts t).1]; omega
    | ⟨1, _⟩ =>
      show win0_0.index t (1 : Fin 2) * 2048 + 1 * k.val = k.val
      rw [(row_facts t).2.1]; omega)
  exact (congrArg (fun i => (V m c main_v33 : S8192x2048.Idx → EReal) i) he).trans (V_x m c _)

/-- Window 1's block at point t: rows I0·512 + p of argument 1. -/
theorem blk1 (c : Dev nD) (t : Fin cfg0.N) (p : Fin 512) (k : Fin 2048) :
    (iblk m c 1 t : Vec Ideal S512x2048 .bf16) (ix2 p k) = (m ((c : Thread nD τ).loc main_arg1)) (ix2 (row (I0 t) p) k) := by
  unfold iblk
  rw [View.read_apply]
  show V m c main_v34 (((cfg0.win 1).blk t).view.emb (ix2 p k)) = (m ((c : Thread nD τ).loc main_arg1)) (ix2 (row (I0 t) p) k)
  have he : ((cfg0.win 1).blk t).view.emb (ix2 p k) = ix2 (row (I0 t) p) k := funext fun a => Fin.ext (by
    match a with
    | ⟨0, _⟩ =>
      show win0_1.index t (0 : Fin 2) * 512 + 1 * p.val = win0_25.index t (0 : Fin 2) * 512 + p.val
      rw [(row_facts t).2.2.1]; omega
    | ⟨1, _⟩ =>
      show win0_1.index t (1 : Fin 2) * 2048 + 1 * k.val = k.val
      rw [(row_facts t).2.2.2.1]; omega)
  exact (congrArg (fun i => (V m c main_v34 : S8192x2048.Idx → EReal) i) he).trans (V_h m c _)

/-- Window 2's block at point t: rows I0·512 + p of argument 2. -/
theorem blk2 (c : Dev nD) (t : Fin cfg0.N) (p : Fin 512) (k : Fin 2048) :
    (iblk m c 2 t : Vec Ideal S512x2048 .f32) (ix2 p k) = (m ((c : Thread nD τ).loc main_arg2)) (ix2 (row (I0 t) p) k) := by
  unfold iblk
  rw [View.read_apply]
  show V m c main_arg2 (((cfg0.win 2).blk t).view.emb (ix2 p k)) = (m ((c : Thread nD τ).loc main_arg2)) (ix2 (row (I0 t) p) k)
  have he : ((cfg0.win 2).blk t).view.emb (ix2 p k) = ix2 (row (I0 t) p) k := funext fun a => Fin.ext (by
    match a with
    | ⟨0, _⟩ =>
      show win0_2.index t (0 : Fin 2) * 512 + 1 * p.val = win0_25.index t (0 : Fin 2) * 512 + p.val
      rw [(row_facts t).2.2.2.2.1]; omega
    | ⟨1, _⟩ =>
      show win0_2.index t (1 : Fin 2) * 2048 + 1 * k.val = k.val
      rw [(row_facts t).2.2.2.2.2]; omega)
  exact (congrArg (fun i => (V m c main_arg2 : S8192x2048.Idx → EReal) i) he).trans (V_c m c _)

/-- Window 3's block at point t: rows I1·256 + q of argument 3, read as columns of its transpose. -/
theorem blk3 (c : Dev nD) (t : Fin cfg0.N) (k : Fin 2048) (q : Fin 256) :
    (iblk m c 3 t : Vec Ideal S2048x256 .bf16) (ix2 k q) = (m ((c : Thread nD τ).loc main_arg3)) (ix2 (col (I1 t) q) k) := by
  unfold iblk
  rw [View.read_apply]
  show V m c main_v1 (((cfg0.win 3).blk t).view.emb (ix2 k q)) = (m ((c : Thread nD τ).loc main_arg3)) (ix2 (col (I1 t) q) k)
  have he : ((cfg0.win 3).blk t).view.emb (ix2 k q) = ix2 k (col (I1 t) q) := funext fun a => Fin.ext (by
    match a with
    | ⟨0, _⟩ =>
      show win0_3.index t (0 : Fin 2) * 2048 + 1 * k.val = k.val
      rw [(col_facts0 t).1]; omega
    | ⟨1, _⟩ =>
      show win0_3.index t (1 : Fin 2) * 256 + 1 * q.val = win0_25.index t (1 : Fin 2) * 256 + q.val
      rw [(col_facts0 t).2.1]; omega)
  exact (congrArg (fun i => (V m c main_v1 : S2048x2048.Idx → EReal) i) he).trans (V_w3 m c k (col (I1 t) q))

/-- Window 4's block at point t: entries I1·256 + q of argument 4. -/
theorem blk4 (c : Dev nD) (t : Fin cfg0.N) (q : Fin 256) :
    (iblk m c 4 t : Vec Ideal S1x256 .f32) (ix2 (0 : Fin 1) q) = (m ((c : Thread nD τ).loc main_arg4)) (ix1 (col (I1 t) q)) := by
  unfold iblk
  rw [View.read_apply]
  show V m c main_v22 (((cfg0.win 4).blk t).view.emb (ix2 (0 : Fin 1) q)) = (m ((c : Thread nD τ).loc main_arg4)) (ix1 (col (I1 t) q))
  have he : ((cfg0.win 4).blk t).view.emb (ix2 (0 : Fin 1) q) = ix2 (0 : Fin 1) (col (I1 t) q) := funext fun a => Fin.ext (by
    match a with
    | ⟨0, _⟩ =>
      show win0_4.index t (0 : Fin 2) * 1 + 1 * 0 = 0
      rw [(col_facts0 t).2.2.1]
    | ⟨1, _⟩ =>
      show win0_4.index t (1 : Fin 2) * 256 + 1 * q.val = win0_25.index t (1 : Fin 2) * 256 + q.val
      rw [(col_facts0 t).2.2.2.1]; omega)
  exact (congrArg (fun i => (V m c main_v22 : S1x2048.Idx → EReal) i) he).trans (V_w4 m c 0 (col (I1 t) q))

/-- Window 5's block at point t: rows I1·256 + q of argument 5, read as columns of its transpose. -/
theorem blk5 (c : Dev nD) (t : Fin cfg0.N) (k : Fin 2048) (q : Fin 256) :
    (iblk m c 5 t : Vec Ideal S2048x256 .bf16) (ix2 k q) = (m ((c : Thread nD τ).loc main_arg5)) (ix2 (col (I1 t) q) k) := by
  unfold iblk
  rw [View.read_apply]
  show V m c main_v3 (((cfg0.win 5).blk t).view.emb (ix2 k q)) = (m ((c : Thread nD τ).loc main_arg5)) (ix2 (col (I1 t) q) k)
  have he : ((cfg0.win 5).blk t).view.emb (ix2 k q) = ix2 k (col (I1 t) q) := funext fun a => Fin.ext (by
    match a with
    | ⟨0, _⟩ =>
      show win0_5.index t (0 : Fin 2) * 2048 + 1 * k.val = k.val
      rw [(col_facts0 t).2.2.2.2.1]; omega
    | ⟨1, _⟩ =>
      show win0_5.index t (1 : Fin 2) * 256 + 1 * q.val = win0_25.index t (1 : Fin 2) * 256 + q.val
      rw [(col_facts0 t).2.2.2.2.2.1]; omega)
  exact (congrArg (fun i => (V m c main_v3 : S2048x2048.Idx → EReal) i) he).trans (V_w5 m c k (col (I1 t) q))

/-- Window 6's block at point t: entries I1·256 + q of argument 6. -/
theorem blk6 (c : Dev nD) (t : Fin cfg0.N) (q : Fin 256) :
    (iblk m c 6 t : Vec Ideal S1x256 .f32) (ix2 (0 : Fin 1) q) = (m ((c : Thread nD τ).loc main_arg6)) (ix1 (col (I1 t) q)) := by
  unfold iblk
  rw [View.read_apply]
  show V m c main_v23 (((cfg0.win 6).blk t).view.emb (ix2 (0 : Fin 1) q)) = (m ((c : Thread nD τ).loc main_arg6)) (ix1 (col (I1 t) q))
  have he : ((cfg0.win 6).blk t).view.emb (ix2 (0 : Fin 1) q) = ix2 (0 : Fin 1) (col (I1 t) q) := funext fun a => Fin.ext (by
    match a with
    | ⟨0, _⟩ =>
      show win0_6.index t (0 : Fin 2) * 1 + 1 * 0 = 0
      rw [(col_facts0 t).2.2.2.2.2.2.1]
    | ⟨1, _⟩ =>
      show win0_6.index t (1 : Fin 2) * 256 + 1 * q.val = win0_25.index t (1 : Fin 2) * 256 + q.val
      rw [(col_facts0 t).2.2.2.2.2.2.2.1]; omega)
  exact (congrArg (fun i => (V m c main_v23 : S1x2048.Idx → EReal) i) he).trans (V_w6 m c 0 (col (I1 t) q))

end Cert.Lstm.Staged

end
-- ==== Proof.BlocksB.lean ====
/-
  The blocks windows 7–12 stage at a grid point, as blocks of their arguments: a block's entry sits in
  its array, on each axis, at block index × block size + its own coordinate; the row-block windows follow the output's
  row tile, the column-block windows its column tile (Staged.lean), and the staged array is its argument cast,
  transposed or lifted to a row.
-/
import proofs.«105667_j80350248173768_2_alg».proof.Proof.Staged

noncomputable section

namespace Cert.Lstm.Staged

open Idealize.ShloMosaic Idealize.ShloMosaic.TcCoe Idealize.ShloMosaic.ValueIdx Idealize.SL.Sem
open Cert.KernelIdeal Cert.KernelIdeal.Gen Cert.Lstm Cert.Lstm.Tile

variable (m : (ℓ : Loc nD τ sig) → Buf (Elt Ideal) ℓ)

/-- Window 7's block at point t: rows I1·256 + q of argument 7, read as columns of its transpose. -/
theorem blk7 (c : Dev nD) (t : Fin cfg0.N) (k : Fin 2048) (q : Fin 256) :
    (iblk m c 7 t : Vec Ideal S2048x256 .bf16) (ix2 k q) = (m ((c : Thread nD τ).loc main_arg7)) (ix2 (col (I1 t) q) k) := by
  unfold iblk
  rw [View.read_apply]
  show V m c main_v5 (((cfg0.win 7).blk t).view.emb (ix2 k q)) = (m ((c : Thread nD τ).loc main_arg7)) (ix2 (col (I1 t) q) k)
  have he : ((cfg0.win 7).blk t).view.emb (ix2 k q) = ix2 k (col (I1 t) q) := funext fun a => Fin.ext (by
    match a with
    | ⟨0, _⟩ =>
      show win0_7.index t (0 : Fin 2) * 2048 + 1 * k.val = k.val
      rw [(col_facts0 t).2.2.2.2.2.2.2.2.1]; omega
    | ⟨1, _⟩ =>
      show win0_7.index t (1 : Fin 2) * 256 + 1 * q.val = win0_25.index t (1 : Fin 2) * 256 + q.val
      rw [(col_facts0 t).2.2.2.2.2.2.2.2.2.1]; omega)
  exact (congrArg (fun i => (V m c main_v5 : S2048x2048.Idx → EReal) i) he).trans (V_w7 m c k (col (I1 t) q))

/-- Window 8's block at point t: entries I1·256 + q of argument 8. -/
theorem blk8 (c : Dev nD) (t : Fin cfg0.N) (q : Fin 256) :
    (iblk m c 8 t : Vec Ideal S1x256 .f32) (ix2 (0 : Fin 1) q) = (m ((c : Thread nD τ).loc main_arg8)) (ix1 (col (I1 t) q)) := by
  unfold iblk
  rw [View.read_apply]
  show V m c main_v24 (((cfg0.win 8).blk t).view.emb (ix2 (0 : Fin 1) q)) = (m ((c : Thread nD τ).loc main_arg8)) (ix1 (col (I1 t) q))
  have he : ((cfg0.win 8).blk t).view.emb (ix2 (0 : Fin 1) q) = ix2 (0 : Fin 1) (col (I1 t) q) := funext fun a => Fin.ext (by
    match a with
    | ⟨0, _⟩ =>
      show win0_8.index t (0 : Fin 2) * 1 + 1 * 0 = 0
      rw [(col_facts0 t).2.2.2.2.2.2.2.2.2.2.1]
    | ⟨1, _⟩ =>
      show win0_8.index t (1 : Fin 2) * 256 + 1 * q.val = win0_25.index t (1 : Fin 2) * 256 + q.val
      rw [(col_facts0 t).2.2.2.2.2.2.2.2.2.2.2]; omega)
  exact (congrArg (fun i => (V m c main_v24 : S1x2048.Idx → EReal) i) he).trans (V_w8 m c 0 (col (I1 t) q))

/-- Window 9's block at point t: rows I1·256 + q of argument 9, read as columns of its transpose. -/
theorem blk9 (c : Dev nD) (t : Fin cfg0.N) (k : Fin 2048) (q : Fin 256) :
    (iblk m c 9 t : Vec Ideal S2048x256 .bf16) (ix2 k q) = (m ((c : Thread nD τ).loc main_arg9)) (ix2 (col (I1 t) q) k) := by
  unfold iblk
  rw [View.read_apply]
  show V m c main_v7 (((cfg0.win 9).blk t).view.emb (ix2 k q)) = (m ((c : Thread nD τ).loc main_arg9)) (ix2 (col (I1 t) q) k)
  have he : ((cfg0.win 9).blk t).view.emb (ix2 k q) = ix2 k (col (I1 t) q) := funext fun a => Fin.ext (by
    match a with
    | ⟨0, _⟩ =>
      show win0_9.index t (0 : Fin 2) * 2048 + 1 * k.val = k.val
      rw [(col_facts1 t).1]; omega
    | ⟨1, _⟩ =>
      show win0_9.index t (1 : Fin 2) * 256 + 1 * q.val = win0_25.index t (1 : Fin 2) * 256 + q.val
      rw [(col_facts1 t).2.1]; omega)
  exact (congrArg (fun i => (V m c main_v7 : S2048x2048.Idx → EReal) i) he).trans (V_w9 m c k (col (I1 t) q))

/-- Window 10's block at point t: entries I1·256 + q of argument 10. -/
theorem blk10 (c : Dev nD) (t : Fin cfg0.N) (q : Fin 256) :
    (iblk m c 10 t : Vec Ideal S1x256 .f32) (ix2 (0 : Fin 1) q) = (m ((c : Thread nD τ).loc main_arg10)) (ix1 (col (I1 t) q)) := by
  unfold iblk
  rw [View.read_apply]
  show V m c main_v25 (((cfg0.win 10).blk t).view.emb (ix2 (0 : Fin 1) q)) = (m ((c : Thread nD τ).loc main_arg10)) (ix1 (col (I1 t) q))
  have he : ((cfg0.win 10).blk t).view.emb (ix2 (0 : Fin 1) q) = ix2 (0 : Fin 1) (col (I1 t) q) := funext fun a => Fin.ext (by
    match a with
    | ⟨0, _⟩ =>
      show win0_10.index t (0 : Fin 2) * 1 + 1 * 0 = 0
      rw [(col_facts1 t).2.2.1]
    | ⟨1, _⟩ =>
      show win0_10.index t (1 : Fin 2) * 256 + 1 * q.val = win0_25.index t (1 : Fin 2) * 256 + q.val
      rw [(col_facts1 t).2.2.2.1]; omega)
  exact (congrArg (fun i => (V m c main_v25 : S1x2048.Idx → EReal) i) he).trans (V_w10 m c 0 (col (I1 t) q))

/-- Window 11's block at point t: rows I1·256 + q of argument 11, read as columns of its transpose. -/
theorem blk11 (c : Dev nD) (t : Fin cfg0.N) (k : Fin 2048) (q : Fin 256) :
    (iblk m c 11 t : Vec Ideal S2048x256 .bf16) (ix2 k q) = (m ((c : Thread nD τ).loc main_arg11)) (ix2 (col (I1 t) q) k) := by
  unfold iblk
  rw [View.read_apply]
  show V m c main_v9 (((cfg0.win 11).blk t).view.emb (ix2 k q)) = (m ((c : Thread nD τ).loc main_arg11)) (ix2 (col (I1 t) q) k)
  have he : ((cfg0.win 11).blk t).view.emb (ix2 k q) = ix2 k (col (I1 t) q) := funext fun a => Fin.ext (by
    match a with
    | ⟨0, _⟩ =>
      show win0_11.index t (0 : Fin 2) * 2048 + 1 * k.val = k.val
      rw [(col_facts1 t).2.2.2.2.1]; omega
    | ⟨1, _⟩ =>
      show win0_11.index t (1 : Fin 2) * 256 + 1 * q.val = win0_25.index t (1 : Fin 2) * 256 + q.val
      rw [(col_facts1 t).2.2.2.2.2.1]; omega)
  exact (congrArg (fun i => (V m c main_v9 : S2048x2048.Idx → EReal) i) he).trans (V_w11 m c k (col (I1 t) q))

/-- Window 12's block at point t: entries I1·256 + q of argument 12. -/
theorem blk12 (c : Dev nD) (t : Fin cfg0.N) (q : Fin 256) :
    (iblk m c 12 t : Vec Ideal S1x256 .f32) (ix2 (0 : Fin 1) q) = (m ((c : Thread nD τ).loc main_arg12)) (ix1 (col (I1 t) q)) := by
  unfold iblk
  rw [View.read_apply]
  show V m c main_v26 (((cfg0.win 12).blk t).view.emb (ix2 (0 : Fin 1) q)) = (m ((c : Thread nD τ).loc main_arg12)) (ix1 (col (I1 t) q))
  have he : ((cfg0.win 12).blk t).view.emb (ix2 (0 : Fin 1) q) = ix2 (0 : Fin 1) (col (I1 t) q) := funext fun a => Fin.ext (by
    match a with
    | ⟨0, _⟩ =>
      show win0_12.index t (0 : Fin 2) * 1 + 1 * 0 = 0
      rw [(col_facts1 t).2.2.2.2.2.2.1]
    | ⟨1, _⟩ =>
      show win0_12.index t (1 : Fin 2) * 256 + 1 * q.val = win0_25.index t (1 : Fin 2) * 256 + q.val
      rw [(col_facts1 t).2.2.2.2.2.2.2.1]; omega)
  exact (congrArg (fun i => (V m c main_v26 : S1x2048.Idx → EReal) i) he).trans (V_w12 m c 0 (col (I1 t) q))

end Cert.Lstm.Staged

end
-- ==== Proof.BlocksC.lean ====
/-
  The blocks windows 13–18 stage at a grid point, as blocks of their arguments: a block's entry sits in
  its array, on each axis, at block index × block size + its own coordinate; the row-block windows follow the output's
  row tile, the column-block windows its column tile (Staged.lean), and the staged array is its argument cast,
  transposed or lifted to a row.
-/
import proofs.«105667_j80350248173768_2_alg».proof.Proof.Staged

noncomputable section

namespace Cert.Lstm.Staged

open Idealize.ShloMosaic Idealize.ShloMosaic.TcCoe Idealize.ShloMosaic.ValueIdx Idealize.SL.Sem
open Cert.KernelIdeal Cert.KernelIdeal.Gen Cert.Lstm Cert.Lstm.Tile

variable (m : (ℓ : Loc nD τ sig) → Buf (Elt Ideal) ℓ)

/-- Window 13's block at point t: rows I1·256 + q of argument 13, read as columns of its transpose. -/
theorem blk13 (c : Dev nD) (t : Fin cfg0.N) (k : Fin 2048) (q : Fin 256) :
    (iblk m c 13 t : Vec Ideal S2048x256 .bf16) (ix2 k q) = (m ((c : Thread nD τ).loc main_arg13)) (ix2 (col (I1 t) q) k) := by
  unfold iblk
  rw [View.read_apply]
  show V m c main_v11 (((cfg0.win 13).blk t).view.emb (ix2 k q)) = (m ((c : Thread nD τ).loc main_arg13)) (ix2 (col (I1 t) q) k)
  have he : ((cfg0.win 13).blk t).view.emb (ix2 k q) = ix2 k (col (I1 t) q) := funext fun a => Fin.ext (by
    match a with
    | ⟨0, _⟩ =>
      show win0_13.index t (0 : Fin 2) * 2048 + 1 * k.val = k.val
      rw [(col_facts1 t).2.2.2.2.2.2.2.2.1]; omega
    | ⟨1, _⟩ =>
      show win0_13.index t (1 : Fin 2) * 256 + 1 * q.val = win0_25.index t (1 : Fin 2) * 256 + q.val
      rw [(col_facts1 t).2.2.2.2.2.2.2.2.2.1]; omega)
  exact (congrArg (fun i => (V m c main_v11 : S2048x2048.Idx → EReal) i) he).trans (V_w13 m c k (col (I1 t) q))

/-- Window 14's block at point t: entries I1·256 + q of argument 14. -/
theorem blk14 (c : Dev nD) (t : Fin cfg0.N) (q : Fin 256) :
    (iblk m c 14 t : Vec Ideal S1x256 .f32) (ix2 (0 : Fin 1) q) = (m ((c : Thread nD τ).loc main_arg14)) (ix1 (col (I1 t) q)) := by
  unfold iblk
  rw [View.read_apply]
  show V m c main_v27 (((cfg0.win 14).blk t).view.emb (ix2 (0 : Fin 1) q)) = (m ((c : Thread nD τ).loc main_arg14)) (ix1 (col (I1 t) q))
  have he : ((cfg0.win 14).blk t).view.emb (ix2 (0 : Fin 1) q) = ix2 (0 : Fin 1) (col (I1 t) q) := funext fun a => Fin.ext (by
    match a with
    | ⟨0, _⟩ =>
      show win0_14.index t (0 : Fin 2) * 1 + 1 * 0 = 0
      rw [(col_facts1 t).2.2.2.2.2.2.2.2.2.2.1]
    | ⟨1, _⟩ =>
      show win0_14.index t (1 : Fin 2) * 256 + 1 * q.val = win0_25.index t (1 : Fin 2) * 256 + q.val
      rw [(col_facts1 t).2.2.2.2.2.2.2.2.2.2.2]; omega)
  exact (congrArg (fun i => (V m c main_v27 : S1x2048.Idx → EReal) i) he).trans (V_w14 m c 0 (col (I1 t) q))

/-- Window 15's block at point t: rows I1·256 + q of argument 15, read as columns of its transpose. -/
theorem blk15 (c : Dev nD) (t : Fin cfg0.N) (k : Fin 2048) (q : Fin 256) :
    (iblk m c 15 t : Vec Ideal S2048x256 .bf16) (ix2 k q) = (m ((c : Thread nD τ).loc main_arg15)) (ix2 (col (I1 t) q) k) := by
  unfold iblk
  rw [View.read_apply]
  show V m c main_v13 (((cfg0.win 15).blk t).view.emb (ix2 k q)) = (m ((c : Thread nD τ).loc main_arg15)) (ix2 (col (I1 t) q) k)
  have he : ((cfg0.win 15).blk t).view.emb (ix2 k q) = ix2 k (col (I1 t) q) := funext fun a => Fin.ext (by
    match a with
    | ⟨0, _⟩ =>
      show win0_15.index t (0 : Fin 2) * 2048 + 1 * k.val = k.val
      rw [(col_facts2 t).1]; omega
    | ⟨1, _⟩ =>
      show win0_15.index t (1 : Fin 2) * 256 + 1 * q.val = win0_25.index t (1 : Fin 2) * 256 + q.val
      rw [(col_facts2 t).2.1]; omega)
  exact (congrArg (fun i => (V m c main_v13 : S2048x2048.Idx → EReal) i) he).trans (V_w15 m c k (col (I1 t) q))

/-- Window 16's block at point t: entries I1·256 + q of argument 16. -/
theorem blk16 (c : Dev nD) (t : Fin cfg0.N) (q : Fin 256) :
    (iblk m c 16 t : Vec Ideal S1x256 .f32) (ix2 (0 : Fin 1) q) = (m ((c : Thread nD τ).loc main_arg16)) (ix1 (col (I1 t) q)) := by
  unfold iblk
  rw [View.read_apply]
  show V m c main_v28 (((cfg0.win 16).blk t).view.emb (ix2 (0 : Fin 1) q)) = (m ((c : Thread nD τ).loc main_arg16)) (ix1 (col (I1 t) q))
  have he : ((cfg0.win 16).blk t).view.emb (ix2 (0 : Fin 1) q) = ix2 (0 : Fin 1) (col (I1 t) q) := funext fun a => Fin.ext (by
    match a with
    | ⟨0, _⟩ =>
      show win0_16.index t (0 : Fin 2) * 1 + 1 * 0 = 0
      rw [(col_facts2 t).2.2.1]
    | ⟨1, _⟩ =>
      show win0_16.index t (1 : Fin 2) * 256 + 1 * q.val = win0_25.index t (1 : Fin 2) * 256 + q.val
      rw [(col_facts2 t).2.2.2.1]; omega)
  exact (congrArg (fun i => (V m c main_v28 : S1x2048.Idx → EReal) i) he).trans (V_w16 m c 0 (col (I1 t) q))

/-- Window 17's block at point t: rows I1·256 + q of argument 17, read as columns of its transpose. -/
theorem blk17 (c : Dev nD) (t : Fin cfg0.N) (k : Fin 2048) (q : Fin 256) :
    (iblk m c 17 t : Vec Ideal S2048x256 .bf16) (ix2 k q) = (m ((c : Thread nD τ).loc main_arg17)) (ix2 (col (I1 t) q) k) := by
  unfold iblk
  rw [View.read_apply]
  show V m c main_v15 (((cfg0.win 17).blk t).view.emb (ix2 k q)) = (m ((c : Thread nD τ).loc main_arg17)) (ix2 (col (I1 t) q) k)
  have he : ((cfg0.win 17).blk t).view.emb (ix2 k q) = ix2 k (col (I1 t) q) := funext fun a => Fin.ext (by
    match a with
    | ⟨0, _⟩ =>
      show win0_17.index t (0 : Fin 2) * 2048 + 1 * k.val = k.val
      rw [(col_facts2 t).2.2.2.2.1]; omega
    | ⟨1, _⟩ =>
      show win0_17.index t (1 : Fin 2) * 256 + 1 * q.val = win0_25.index t (1 : Fin 2) * 256 + q.val
      rw [(col_facts2 t).2.2.2.2.2.1]; omega)
  exact (congrArg (fun i => (V m c main_v15 : S2048x2048.Idx → EReal) i) he).trans (V_w17 m c k (col (I1 t) q))

/-- Window 18's block at point t: entries I1·256 + q of argument 18. -/
theorem blk18 (c : Dev nD) (t : Fin cfg0.N) (q : Fin 256) :
    (iblk m c 18 t : Vec Ideal S1x256 .f32) (ix2 (0 : Fin 1) q) = (m ((c : Thread nD τ).loc main_arg18)) (ix1 (col (I1 t) q)) := by
  unfold iblk
  rw [View.read_apply]
  show V m c main_v29 (((cfg0.win 18).blk t).view.emb (ix2 (0 : Fin 1) q)) = (m ((c : Thread nD τ).loc main_arg18)) (ix1 (col (I1 t) q))
  have he : ((cfg0.win 18).blk t).view.emb (ix2 (0 : Fin 1) q) = ix2 (0 : Fin 1) (col (I1 t) q) := funext fun a => Fin.ext (by
    match a with
    | ⟨0, _⟩ =>
      show win0_18.index t (0 : Fin 2) * 1 + 1 * 0 = 0
      rw [(col_facts2 t).2.2.2.2.2.2.1]
    | ⟨1, _⟩ =>
      show win0_18.index t (1 : Fin 2) * 256 + 1 * q.val = win0_25.index t (1 : Fin 2) * 256 + q.val
      rw [(col_facts2 t).2.2.2.2.2.2.2.1]; omega)
  exact (congrArg (fun i => (V m c main_v29 : S1x2048.Idx → EReal) i) he).trans (V_w18 m c 0 (col (I1 t) q))

end Cert.Lstm.Staged

end
-- ==== Proof.BlocksD.lean ====
/-
  The blocks windows 19–24 stage at a grid point, as blocks of their arguments: a block's entry sits in
  its array, on each axis, at block index × block size + its own coordinate; the row-block windows follow the output's
  row tile, the column-block windows its column tile (Staged.lean), and the staged array is its argument cast,
  transposed or lifted to a row.
-/
import proofs.«105667_j80350248173768_2_alg».proof.Proof.Staged

noncomputable section

namespace Cert.Lstm.Staged

open Idealize.ShloMosaic Idealize.ShloMosaic.TcCoe Idealize.ShloMosaic.ValueIdx Idealize.SL.Sem
open Cert.KernelIdeal Cert.KernelIdeal.Gen Cert.Lstm Cert.Lstm.Tile

variable (m : (ℓ : Loc nD τ sig) → Buf (Elt Ideal) ℓ)

/-- Window 19's block at point t: rows I1·256 + q of argument 19, read as columns of its transpose. -/
theorem blk19 (c : Dev nD) (t : Fin cfg0.N) (k : Fin 2048) (q : Fin 256) :
    (iblk m c 19 t : Vec Ideal S2048x256 .bf16) (ix2 k q) = (m ((c : Thread nD τ).loc main_arg19)) (ix2 (col (I1 t) q) k) := by
  unfold iblk
  rw [View.read_apply]
  show V m c main_v17 (((cfg0.win 19).blk t).view.emb (ix2 k q)) = (m ((c : Thread nD τ).loc main_arg19)) (ix2 (col (I1 t) q) k)
  have he : ((cfg0.win 19).blk t).view.emb (ix2 k q) = ix2 k (col (I1 t) q) := funext fun a => Fin.ext (by
    match a with
    | ⟨0, _⟩ =>
      show win0_19.index t (0 : Fin 2) * 2048 + 1 * k.val = k.val
      rw [(col_facts2 t).2.2.2.2.2.2.2.2.1]; omega
    | ⟨1, _⟩ =>
      show win0_19.index t (1 : Fin 2) * 256 + 1 * q.val = win0_25.index t (1 : Fin 2) * 256 + q.val
      rw [(col_facts2 t).2.2.2.2.2.2.2.2.2.1]; omega)
  exact (congrArg (fun i => (V m c main_v17 : S2048x2048.Idx → EReal) i) he).trans (V_w19 m c k (col (I1 t) q))

/-- Window 20's block at point t: entries I1·256 + q of argument 20. -/
theorem blk20 (c : Dev nD) (t : Fin cfg0.N) (q : Fin 256) :
    (iblk m c 20 t : Vec Ideal S1x256 .f32) (ix2 (0 : Fin 1) q) = (m ((c : Thread nD τ).loc main_arg20)) (ix1 (col (I1 t) q)) := by
  unfold iblk
  rw [View.read_apply]
  show V m c main_v30 (((cfg0.win 20).blk t).view.emb (ix2 (0 : Fin 1) q)) = (m ((c : Thread nD τ).loc main_arg20)) (ix1 (col (I1 t) q))
  have he : ((cfg0.win 20).blk t).view.emb (ix2 (0 : Fin 1) q) = ix2 (0 : Fin 1) (col (I1 t) q) := funext fun a => Fin.ext (by
    match a with
    | ⟨0, _⟩ =>
      show win0_20.index t (0 : Fin 2) * 1 + 1 * 0 = 0
      rw [(col_facts2 t).2.2.2.2.2.2.2.2.2.2.1]
    | ⟨1, _⟩ =>
      show win0_20.index t (1 : Fin 2) * 256 + 1 * q.val = win0_25.index t (1 : Fin 2) * 256 + q.val
      rw [(col_facts2 t).2.2.2.2.2.2.2.2.2.2.2]; omega)
  exact (congrArg (fun i => (V m c main_v30 : S1x2048.Idx → EReal) i) he).trans (V_w20 m c 0 (col (I1 t) q))

/-- Window 21's block at point t: rows I1·256 + q of argument 21, read as columns of its transpose. -/
theorem blk21 (c : Dev nD) (t : Fin cfg0.N) (k : Fin 2048) (q : Fin 256) :
    (iblk m c 21 t : Vec Ideal S2048x256 .bf16) (ix2 k q) = (m ((c : Thread nD τ).loc main_arg21)) (ix2 (col (I1 t) q) k) := by
  unfold iblk
  rw [View.read_apply]
  show V m c main_v19 (((cfg0.win 21).blk t).view.emb (ix2 k q)) = (m ((c : Thread nD τ).loc main_arg21)) (ix2 (col (I1 t) q) k)
  have he : ((cfg0.win 21).blk t).view.emb (ix2 k q) = ix2 k (col (I1 t) q) := funext fun a => Fin.ext (by
    match a with
    | ⟨0, _⟩ =>
      show win0_21.index t (0 : Fin 2) * 2048 + 1 * k.val = k.val
      rw [(col_facts3 t).1]; omega
    | ⟨1, _⟩ =>
      show win0_21.index t (1 : Fin 2) * 256 + 1 * q.val = win0_25.index t (1 : Fin 2) * 256 + q.val
      rw [(col_facts3 t).2.1]; omega)
  exact (congrArg (fun i => (V m c main_v19 : S2048x2048.Idx → EReal) i) he).trans (V_w21 m c k (col (I1 t) q))

/-- Window 22's block at point t: entries I1·256 + q of argument 22. -/
theorem blk22 (c : Dev nD) (t : Fin cfg0.N) (q : Fin 256) :
    (iblk m c 22 t : Vec Ideal S1x256 .f32) (ix2 (0 : Fin 1) q) = (m ((c : Thread nD τ).loc main_arg22)) (ix1 (col (I1 t) q)) := by
  unfold iblk
  rw [View.read_apply]
  show V m c main_v31 (((cfg0.win 22).blk t).view.emb (ix2 (0 : Fin 1) q)) = (m ((c : Thread nD τ).loc main_arg22)) (ix1 (col (I1 t) q))
  have he : ((cfg0.win 22).blk t).view.emb (ix2 (0 : Fin 1) q) = ix2 (0 : Fin 1) (col (I1 t) q) := funext fun a => Fin.ext (by
    match a with
    | ⟨0, _⟩ =>
      show win0_22.index t (0 : Fin 2) * 1 + 1 * 0 = 0
      rw [(col_facts3 t).2.2.1]
    | ⟨1, _⟩ =>
      show win0_22.index t (1 : Fin 2) * 256 + 1 * q.val = win0_25.index t (1 : Fin 2) * 256 + q.val
      rw [(col_facts3 t).2.2.2.1]; omega)
  exact (congrArg (fun i => (V m c main_v31 : S1x2048.Idx → EReal) i) he).trans (V_w22 m c 0 (col (I1 t) q))

/-- Window 23's block at point t: rows I1·256 + q of argument 23, read as columns of its transpose. -/
theorem blk23 (c : Dev nD) (t : Fin cfg0.N) (k : Fin 2048) (q : Fin 256) :
    (iblk m c 23 t : Vec Ideal S2048x256 .bf16) (ix2 k q) = (m ((c : Thread nD τ).loc main_arg23)) (ix2 (col (I1 t) q) k) := by
  unfold iblk
  rw [View.read_apply]
  show V m c main_v21 (((cfg0.win 23).blk t).view.emb (ix2 k q)) = (m ((c : Thread nD τ).loc main_arg23)) (ix2 (col (I1 t) q) k)
  have he : ((cfg0.win 23).blk t).view.emb (ix2 k q) = ix2 k (col (I1 t) q) := funext fun a => Fin.ext (by
    match a with
    | ⟨0, _⟩ =>
      show win0_23.index t (0 : Fin 2) * 2048 + 1 * k.val = k.val
      rw [(col_facts3 t).2.2.2.2.1]; omega
    | ⟨1, _⟩ =>
      show win0_23.index t (1 : Fin 2) * 256 + 1 * q.val = win0_25.index t (1 : Fin 2) * 256 + q.val
      rw [(col_facts3 t).2.2.2.2.2.1]; omega)
  exact (congrArg (fun i => (V m c main_v21 : S2048x2048.Idx → EReal) i) he).trans (V_w23 m c k (col (I1 t) q))

/-- Window 24's block at point t: entries I1·256 + q of argument 24. -/
theorem blk24 (c : Dev nD) (t : Fin cfg0.N) (q : Fin 256) :
    (iblk m c 24 t : Vec Ideal S1x256 .f32) (ix2 (0 : Fin 1) q) = (m ((c : Thread nD τ).loc main_arg24)) (ix1 (col (I1 t) q)) := by
  unfold iblk
  rw [View.read_apply]
  show V m c main_v32 (((cfg0.win 24).blk t).view.emb (ix2 (0 : Fin 1) q)) = (m ((c : Thread nD τ).loc main_arg24)) (ix1 (col (I1 t) q))
  have he : ((cfg0.win 24).blk t).view.emb (ix2 (0 : Fin 1) q) = ix2 (0 : Fin 1) (col (I1 t) q) := funext fun a => Fin.ext (by
    match a with
    | ⟨0, _⟩ =>
      show win0_24.index t (0 : Fin 2) * 1 + 1 * 0 = 0
      rw [(col_facts3 t).2.2.2.2.2.2.1]
    | ⟨1, _⟩ =>
      show win0_24.index t (1 : Fin 2) * 256 + 1 * q.val = win0_25.index t (1 : Fin 2) * 256 + q.val
      rw [(col_facts3 t).2.2.2.2.2.2.2]; omega)
  exact (congrArg (fun i => (V m c main_v32 : S1x2048.Idx → EReal) i) he).trans (V_w24 m c 0 (col (I1 t) q))

end Cert.Lstm.Staged

end
-- ==== Proof.Blocks.lean ====
/-
  At a grid point, the twenty-five blocks the input windows stage are the blocks of the arguments that the point's
  output tile needs: the per-window facts of BlocksA–BlocksD, collected.
-/
import proofs.«105667_j80350248173768_2_alg».proof.Proof.BlocksA
import proofs.«105667_j80350248173768_2_alg».proof.Proof.BlocksB
import proofs.«105667_j80350248173768_2_alg».proof.Proof.BlocksC
import proofs.«105667_j80350248173768_2_alg».proof.Proof.BlocksD

noncomputable section

namespace Cert.Lstm.Staged

open Idealize.ShloMosaic Idealize.ShloMosaic.TcCoe Idealize.ShloMosaic.ValueIdx Idealize.SL.Sem
open Cert.KernelIdeal Cert.KernelIdeal.Gen Cert.Lstm Cert.Lstm.Tile

variable (m : (ℓ : Loc nD τ sig) → Buf (Elt Ideal) ℓ)

/-- At grid point t, the block each input window stages is the block of its argument that output tile (I0 t, I1 t)
    needs. -/
theorem blocks (c : Dev nD) (t : Fin cfg0.N) :
    Blocks (args m c) (I0 t) (I1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) :=
  ⟨blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t⟩

end Cert.Lstm.Staged

end
-- ==== Proof.Flush.lean ====
/-
  The kernel's two result arrays are the cell step of its arguments.

  At each of the 128 grid points the body leaves, in the two output windows' staging buffers, the tiles 'hTile' and
  'cTile' of the blocks it loaded (the one covering store of each buffer, read back). By Staged.lean and Blocks.lean those blocks are
  the blocks of the arguments that the point's output tile needs, so by Entry.lean the tile's entry (p, q) is the new
  hidden / cell state at (I0·512+p, I1·256+q) — which is where the write-back puts it. Every index of an 8192 × 2048
  array lies in the tile (row / 512, column / 256), and every tile is some point's; so after the run the two arrays
  are the new hidden and cell states everywhere.
-/
import proofs.«105667_j80350248173768_2_alg».proof.Proof.KernelIdealFrame
import proofs.«105667_j80350248173768_2_alg».proof.Proof.Blocks
import Idealize.ShloMosaic.Lib.Pipeline.Value
import Idealize.ShloMosaic.Lib.Tactic

noncomputable section

namespace Cert.Lstm.Flush

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP
open Cert.Lstm Cert.Lstm.Tile Cert.Lstm.Staged

variable (m : (ℓ : Loc nD τ sig) → Buf (Elt Ideal) ℓ) (ρ : Dev nD → PrngReg)

theorem hz : (![0, 0] : Fin 2 → Nat) = fun _ => 0 := funext fun a => by fin_cases a <;> rfl

/-! ## A tile's entry at an array index -/

/-- The stored cell-state tile at a tile index y is the new cell state at any array index whose coordinates are
    the tile's offsets plus y's. -/
theorem cTile_at {A : Args} {I0 : Fin 16} {I1 : Fin 8} {x0 x1 : FVec Ideal S512x2048 .bf16} {x2 : FVec Ideal S512x2048 .f32}
    {x3 : FVec Ideal S2048x256 .bf16} {x4 : FVec Ideal S1x256 .f32} {x5 : FVec Ideal S2048x256 .bf16} {x6 : FVec Ideal S1x256 .f32} {x7 : FVec Ideal S2048x256 .bf16} {x8 : FVec Ideal S1x256 .f32} {x9 : FVec Ideal S2048x256 .bf16} {x10 : FVec Ideal S1x256 .f32} {x11 : FVec Ideal S2048x256 .bf16} {x12 : FVec Ideal S1x256 .f32} {x13 : FVec Ideal S2048x256 .bf16} {x14 : FVec Ideal S1x256 .f32} {x15 : FVec Ideal S2048x256 .bf16} {x16 : FVec Ideal S1x256 .f32} {x17 : FVec Ideal S2048x256 .bf16} {x18 : FVec Ideal S1x256 .f32} {x19 : FVec Ideal S2048x256 .bf16} {x20 : FVec Ideal S1x256 .f32} {x21 : FVec Ideal S2048x256 .bf16} {x22 : FVec Ideal S1x256 .f32} {x23 : FVec Ideal S2048x256 .bf16} {x24 : FVec Ideal S1x256 .f32}
    (B : Blocks A I0 I1 x0 x1 x2 x3 x4 x5 x6 x7 x8 x9 x10 x11 x12 x13 x14 x15 x16 x17 x18 x19 x20 x21 x22 x23 x24) (v100 : FVec Ideal S512x256 .f32)
    (hv : ∀ (p : Fin 512) (q : Fin 256), v100 (ix2 p q) = x2 (ix2 p (col I1 q)))
    (y : S512x256.Idx) (i : S8192x2048.Idx) (h0 : (i 0).val = I0.val * 512 + (y 0).val)
    (h1 : (i 1).val = I1.val * 256 + (y 1).val) :
    cTile x0 x1 x2 x3 x4 x5 x6 x7 x8 x9 x10 x11 x12 x13 x14 x21 x22 x23 x24 v100 y = A.cArr i := by
  obtain ⟨p, q, rfl⟩ : ∃ (p : Fin 512) (q : Fin 256), y = ix2 p q := ⟨y 0, y 1, eq_ix2 y⟩
  rw [cTile_entry B v100 hv p q]
  show A.cNew (row I0 p) (col I1 q) = A.cNew (i 0) (i 1)
  exact congrArg₂ A.cNew (Fin.ext h0.symm) (Fin.ext h1.symm)

theorem hTile_at {A : Args} {I0 : Fin 16} {I1 : Fin 8} {x0 x1 : FVec Ideal S512x2048 .bf16} {x2 : FVec Ideal S512x2048 .f32}
    {x3 : FVec Ideal S2048x256 .bf16} {x4 : FVec Ideal S1x256 .f32} {x5 : FVec Ideal S2048x256 .bf16} {x6 : FVec Ideal S1x256 .f32} {x7 : FVec Ideal S2048x256 .bf16} {x8 : FVec Ideal S1x256 .f32} {x9 : FVec Ideal S2048x256 .bf16} {x10 : FVec Ideal S1x256 .f32} {x11 : FVec Ideal S2048x256 .bf16} {x12 : FVec Ideal S1x256 .f32} {x13 : FVec Ideal S2048x256 .bf16} {x14 : FVec Ideal S1x256 .f32} {x15 : FVec Ideal S2048x256 .bf16} {x16 : FVec Ideal S1x256 .f32} {x17 : FVec Ideal S2048x256 .bf16} {x18 : FVec Ideal S1x256 .f32} {x19 : FVec Ideal S2048x256 .bf16} {x20 : FVec Ideal S1x256 .f32} {x21 : FVec Ideal S2048x256 .bf16} {x22 : FVec Ideal S1x256 .f32} {x23 : FVec Ideal S2048x256 .bf16} {x24 : FVec Ideal S1x256 .f32}
    (B : Blocks A I0 I1 x0 x1 x2 x3 x4 x5 x6 x7 x8 x9 x10 x11 x12 x13 x14 x15 x16 x17 x18 x19 x20 x21 x22 x23 x24) (v100 : FVec Ideal S512x256 .f32)
    (hv : ∀ (p : Fin 512) (q : Fin 256), v100 (ix2 p q) = x2 (ix2 p (col I1 q)))
    (y : S512x256.Idx) (i : S8192x2048.Idx) (h0 : (i 0).val = I0.val * 512 + (y 0).val)
    (h1 : (i 1).val = I1.val * 256 + (y 1).val) :
    hTile x0 x1 x2 x3 x4 x5 x6 x7 x8 x9 x10 x11 x12 x13 x14 x15 x16 x17 x18 x19 x20 x21 x22 x23 x24 v100 y = A.hArr i := by
  obtain ⟨p, q, rfl⟩ : ∃ (p : Fin 512) (q : Fin 256), y = ix2 p q := ⟨y 0, y 1, eq_ix2 y⟩
  rw [hTile_entry B v100 hv p q]
  show A.hNew (row I0 p) (col I1 q) = A.hNew (i 0) (i 1)
  exact congrArg₂ A.hNew (Fin.ext h0.symm) (Fin.ext h1.symm)

/-! ## What the body leaves in the two output buffers -/

/-- The new-cell-state buffer after the body: its one covering store's value, the loads reading the whole
    staging buffers and, for the previous cell state's tile, columns of the c block. -/
theorem out26_eq (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S2048x256 .bf16) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x256 .bf16) (harg11 : arg11.IsWhole) (arg12 : Memref sig .tc .vmem S1x256 .f32) (harg12 : arg12.IsWhole) (arg13 : Memref sig .tc .vmem S2048x256 .bf16) (harg13 : arg13.IsWhole) (arg14 : Memref sig .tc .vmem S1x256 .f32) (harg14 : arg14.IsWhole) (arg15 : Memref sig .tc .vmem S2048x256 .bf16) (harg15 : arg15.IsWhole) (arg16 : Memref sig .tc .vmem S1x256 .f32) (harg16 : arg16.IsWhole) (arg17 : Memref sig .tc .vmem S2048x256 .bf16) (harg17 : arg17.IsWhole) (arg18 : Memref sig .tc .vmem S1x256 .f32) (harg18 : arg18.IsWhole) (arg19 : Memref sig .tc .vmem S2048x256 .bf16) (harg19 : arg19.IsWhole) (arg20 : Memref sig .tc .vmem S1x256 .f32) (harg20 : arg20.IsWhole) (arg21 : Memref sig .tc .vmem S2048x256 .bf16) (harg21 : arg21.IsWhole) (arg22 : Memref sig .tc .vmem S1x256 .f32) (harg22 : arg22.IsWhole) (arg23 : Memref sig .tc .vmem S2048x256 .bf16) (harg23 : arg23.IsWhole) (arg24 : Memref sig .tc .vmem S1x256 .f32) (harg24 : arg24.IsWhole) (arg25 : Memref sig .tc .vmem S2048x256 .bf16) (harg25 : arg25.IsWhole) (arg26 : Memref sig .tc .vmem S1x256 .f32) (harg26 : arg26.IsWhole) (arg27 : Memref sig .tc .vmem S512x256 .f32) (harg27 : arg27.IsWhole) (arg28 : Memref sig .tc .vmem S512x256 .f32) (harg28 : arg28.IsWhole)
    (x0 : Vec Ideal S512x2048 .bf16) (x1 : Vec Ideal S512x2048 .bf16) (x2 : Vec Ideal S512x2048 .f32) (x3 : Vec Ideal S2048x256 .bf16) (x4 : Vec Ideal S1x256 .f32) (x5 : Vec Ideal S2048x256 .bf16) (x6 : Vec Ideal S1x256 .f32) (x7 : Vec Ideal S2048x256 .bf16) (x8 : Vec Ideal S1x256 .f32) (x9 : Vec Ideal S2048x256 .bf16) (x10 : Vec Ideal S1x256 .f32) (x11 : Vec Ideal S2048x256 .bf16) (x12 : Vec Ideal S1x256 .f32) (x13 : Vec Ideal S2048x256 .bf16) (x14 : Vec Ideal S1x256 .f32) (x15 : Vec Ideal S2048x256 .bf16) (x16 : Vec Ideal S1x256 .f32) (x17 : Vec Ideal S2048x256 .bf16) (x18 : Vec Ideal S1x256 .f32) (x19 : Vec Ideal S2048x256 .bf16) (x20 : Vec Ideal S1x256 .f32) (x21 : Vec Ideal S2048x256 .bf16) (x22 : Vec Ideal S1x256 .f32) (x23 : Vec Ideal S2048x256 .bf16) (x24 : Vec Ideal S1x256 .f32) :
    out0_A_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24
      = cTile x0 x1 x2 x3 x4 x5 x6 x7 x8 x9 x10 x11 x12 x13 x14 x21 x22 x23 x24 (View.ld (Val := Elt Ideal) x2 (Rect.unit (k0_off1 i) S512x256.size (Cert.KernelIdeal.Gen.k0_off1_inb i))) := by
  unfold out0_A_26
  rw [View.read_writes_eq_canon _ _ _ (cover0_A_26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.ld_unit_zero (S := S512x2048) hz, View.ld_unit_zero (S := S2048x256) hz, View.ld_unit_zero (S := S1x256) hz]
  rfl

/-- The new-hidden-state buffer after the body. -/
theorem out25_eq (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .f32) (harg4 : arg4.IsWhole) (arg5 : Memref sig .tc .vmem S2048x256 .bf16) (harg5 : arg5.IsWhole) (arg6 : Memref sig .tc .vmem S1x256 .f32) (harg6 : arg6.IsWhole) (arg7 : Memref sig .tc .vmem S2048x256 .bf16) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x256 .bf16) (harg11 : arg11.IsWhole) (arg12 : Memref sig .tc .vmem S1x256 .f32) (harg12 : arg12.IsWhole) (arg13 : Memref sig .tc .vmem S2048x256 .bf16) (harg13 : arg13.IsWhole) (arg14 : Memref sig .tc .vmem S1x256 .f32) (harg14 : arg14.IsWhole) (arg15 : Memref sig .tc .vmem S2048x256 .bf16) (harg15 : arg15.IsWhole) (arg16 : Memref sig .tc .vmem S1x256 .f32) (harg16 : arg16.IsWhole) (arg17 : Memref sig .tc .vmem S2048x256 .bf16) (harg17 : arg17.IsWhole) (arg18 : Memref sig .tc .vmem S1x256 .f32) (harg18 : arg18.IsWhole) (arg19 : Memref sig .tc .vmem S2048x256 .bf16) (harg19 : arg19.IsWhole) (arg20 : Memref sig .tc .vmem S1x256 .f32) (harg20 : arg20.IsWhole) (arg21 : Memref sig .tc .vmem S2048x256 .bf16) (harg21 : arg21.IsWhole) (arg22 : Memref sig .tc .vmem S1x256 .f32) (harg22 : arg22.IsWhole) (arg23 : Memref sig .tc .vmem S2048x256 .bf16) (harg23 : arg23.IsWhole) (arg24 : Memref sig .tc .vmem S1x256 .f32) (harg24 : arg24.IsWhole) (arg25 : Memref sig .tc .vmem S2048x256 .bf16) (harg25 : arg25.IsWhole) (arg26 : Memref sig .tc .vmem S1x256 .f32) (harg26 : arg26.IsWhole) (arg27 : Memref sig .tc .vmem S512x256 .f32) (harg27 : arg27.IsWhole) (arg28 : Memref sig .tc .vmem S512x256 .f32) (harg28 : arg28.IsWhole)
    (x0 : Vec Ideal S512x2048 .bf16) (x1 : Vec Ideal S512x2048 .bf16) (x2 : Vec Ideal S512x2048 .f32) (x3 : Vec Ideal S2048x256 .bf16) (x4 : Vec Ideal S1x256 .f32) (x5 : Vec Ideal S2048x256 .bf16) (x6 : Vec Ideal S1x256 .f32) (x7 : Vec Ideal S2048x256 .bf16) (x8 : Vec Ideal S1x256 .f32) (x9 : Vec Ideal S2048x256 .bf16) (x10 : Vec Ideal S1x256 .f32) (x11 : Vec Ideal S2048x256 .bf16) (x12 : Vec Ideal S1x256 .f32) (x13 : Vec Ideal S2048x256 .bf16) (x14 : Vec Ideal S1x256 .f32) (x15 : Vec Ideal S2048x256 .bf16) (x16 : Vec Ideal S1x256 .f32) (x17 : Vec Ideal S2048x256 .bf16) (x18 : Vec Ideal S1x256 .f32) (x19 : Vec Ideal S2048x256 .bf16) (x20 : Vec Ideal S1x256 .f32) (x21 : Vec Ideal S2048x256 .bf16) (x22 : Vec Ideal S1x256 .f32) (x23 : Vec Ideal S2048x256 .bf16) (x24 : Vec Ideal S1x256 .f32) :
    out0_A_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24
      = hTile x0 x1 x2 x3 x4 x5 x6 x7 x8 x9 x10 x11 x12 x13 x14 x15 x16 x17 x18 x19 x20 x21 x22 x23 x24 (View.ld (Val := Elt Ideal) x2 (Rect.unit (k0_off1 i) S512x256.size (Cert.KernelIdeal.Gen.k0_off1_inb i))) := by
  unfold out0_A_25
  rw [View.read_writes_eq_canon _ _ _ (cover0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.ld_unit_zero (S := S512x2048) hz, View.ld_unit_zero (S := S2048x256) hz, View.ld_unit_zero (S := S1x256) hz]
  rfl

/-! ## What each grid point writes back -/

/-- Point t writes back, to window 26's array, block t of the new cell state. -/
theorem flushed26_eq (c : Dev nD) (t : Fin cfg0.N) :
    (dats m 0 c).flushed 26 t = ((cfg0.win 26).blk t).view.read (Elt Ideal) (args m c).cArr := by
  show (cfg0.win 26).cut (grid0.coords t) ((dats m 0 c).after 26 t) = _
  rw [after0_26]
  unfold outsAt0
  dsimp only
  rw [out26_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)]
  funext y
  exact cTile_at (blocks m c t) _ (fun p q => slice_apply t (iblk m c 2 t) _ p q) y
    (((cfg0.win 26).blk t).view.emb y)
    (by show win0_26.index t (0 : Fin 2) * 512 + 1 * (y 0).val = win0_25.index t (0 : Fin 2) * 512 + (y 0).val
        rw [(out_facts t).2.2.1]; omega)
    (by show win0_26.index t (1 : Fin 2) * 256 + 1 * (y 1).val = win0_25.index t (1 : Fin 2) * 256 + (y 1).val
        rw [(out_facts t).2.2.2]; omega)

/-- Point t writes back, to window 25's array, block t of the new hidden state. -/
theorem flushed25_eq (c : Dev nD) (t : Fin cfg0.N) :
    (dats m 0 c).flushed 25 t = ((cfg0.win 25).blk t).view.read (Elt Ideal) (args m c).hArr := by
  show (cfg0.win 25).cut (grid0.coords t) ((dats m 0 c).after 25 t) = _
  rw [after0_25]
  unfold outsAt0
  dsimp only
  rw [out25_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)]
  funext y
  exact hTile_at (blocks m c t) _ (fun p q => slice_apply t (iblk m c 2 t) _ p q) y
    (((cfg0.win 25).blk t).view.emb y)
    (by show win0_25.index t (0 : Fin 2) * 512 + 1 * (y 0).val = win0_25.index t (0 : Fin 2) * 512 + (y 0).val
        omega)
    (by show win0_25.index t (1 : Fin 2) * 256 + 1 * (y 1).val = win0_25.index t (1 : Fin 2) * 256 + (y 1).val
        omega)

/-! ## The tiles cover the arrays -/

/-- Every tile of the 16 × 8 grid is some point's. -/
theorem tile_onto : ∀ (q0 : Fin 16) (q1 : Fin 8), ∃ t : Fin cfg0.N,
    win0_25.index t (0 : Fin 2) = q0.val ∧ win0_25.index t (1 : Fin 2) = q1.val :=
  (by decide +kernel : ∀ (q0 : Fin 16) (q1 : Fin 8), ∃ t : Fin grid0.N,
    win0_25.index t (0 : Fin 2) = q0.val ∧ win0_25.index t (1 : Fin 2) = q1.val)

/-- An index is in point t's block of window 25 iff each coordinate is in the block's range. -/
theorem mem_blk25 (t : Fin cfg0.N) (i : S8192x2048.Idx) :
    i ∈ ((cfg0.win 25).blk t).view.set ↔ ∀ a : Fin 2, win0_25.index t a * S512x256.size a ≤ (i a).val
      ∧ (i a).val < win0_25.index t a * S512x256.size a + S512x256.size a := by
  show i ∈ ((View.whole main_v35_0).slice (win0_25.rect t)).set ↔ _
  rw [View.set_slice_whole, Rect.mem_set_unit]
  exact Iff.rfl

/-- Every index of window 25's array is in some point's block: the point of tile (row / 512, column / 256). -/
theorem cover25 (i : S8192x2048.Idx) :
    ∃ t : Fin cfg0.N, (cfg0.win 25).flush t = true ∧ i ∈ ((cfg0.win 25).blk t).view.set := by
  have hi0 : (i 0).val < 8192 := (i 0).isLt
  have hi1 : (i 1).val < 2048 := (i 1).isLt
  obtain ⟨t, ht0, ht1⟩ := tile_onto ⟨(i 0).val / 512, by omega⟩ ⟨(i 1).val / 256, by omega⟩
  have e0 : win0_25.index t (0 : Fin 2) = (i 0).val / 512 := ht0
  have e1 : win0_25.index t (1 : Fin 2) = (i 1).val / 256 := ht1
  refine ⟨t, flush0_25 t, ?_⟩
  rw [mem_blk25]
  intro a
  match a with
  | ⟨0, _⟩ =>
    show win0_25.index t (0 : Fin 2) * 512 ≤ (i 0).val ∧ (i 0).val < win0_25.index t (0 : Fin 2) * 512 + 512
    rw [e0]; omega
  | ⟨1, _⟩ =>
    show win0_25.index t (1 : Fin 2) * 256 ≤ (i 1).val ∧ (i 1).val < win0_25.index t (1 : Fin 2) * 256 + 256
    rw [e1]; omega

/-- An index is in point t's block of window 26 iff each coordinate is in the block's range. -/
theorem mem_blk26 (t : Fin cfg0.N) (i : S8192x2048.Idx) :
    i ∈ ((cfg0.win 26).blk t).view.set ↔ ∀ a : Fin 2, win0_26.index t a * S512x256.size a ≤ (i a).val
      ∧ (i a).val < win0_26.index t a * S512x256.size a + S512x256.size a := by
  show i ∈ ((View.whole main_v35_1).slice (win0_26.rect t)).set ↔ _
  rw [View.set_slice_whole, Rect.mem_set_unit]
  exact Iff.rfl

/-- Every index of window 26's array is in some point's block: the point of tile (row / 512, column / 256). -/
theorem cover26 (i : S8192x2048.Idx) :
    ∃ t : Fin cfg0.N, (cfg0.win 26).flush t = true ∧ i ∈ ((cfg0.win 26).blk t).view.set := by
  have hi0 : (i 0).val < 8192 := (i 0).isLt
  have hi1 : (i 1).val < 2048 := (i 1).isLt
  obtain ⟨t, ht0, ht1⟩ := tile_onto ⟨(i 0).val / 512, by omega⟩ ⟨(i 1).val / 256, by omega⟩
  have e0 : win0_26.index t (0 : Fin 2) = (i 0).val / 512 := ((out_facts t).2.2.1).trans ht0
  have e1 : win0_26.index t (1 : Fin 2) = (i 1).val / 256 := ((out_facts t).2.2.2).trans ht1
  refine ⟨t, flush0_26 t, ?_⟩
  rw [mem_blk26]
  intro a
  match a with
  | ⟨0, _⟩ =>
    show win0_26.index t (0 : Fin 2) * 512 ≤ (i 0).val ∧ (i 0).val < win0_26.index t (0 : Fin 2) * 512 + 512
    rw [e0]; omega
  | ⟨1, _⟩ =>
    show win0_26.index t (1 : Fin 2) * 256 ≤ (i 1).val ∧ (i 1).val < win0_26.index t (1 : Fin 2) * 256 + 256
    rw [e1]; omega

/-! ## The arrays after the run, and the run -/

/-- After the run the first result array is the new hidden state. -/
theorem final_h (c : Dev nD) : (dats m 0 c).arrAt 25 cfg0.N = (args m c).hArr :=
  (dats m 0 c).arrAt_eq_of_cover 25 (args m c).hArr (fun t _ => flushed25_eq m c t) (cover25)

/-- After the run the second result array is the new cell state. -/
theorem final_c (c : Dev nD) : (dats m 0 c).arrAt 26 cfg0.N = (args m c).cArr :=
  (dats m 0 c).arrAt_eq_of_cover 26 (args m c).cArr (fun t _ => flushed26_eq m c t) (cover26)

/-- Every weakly fair execution of the idealized kernel's program terminates with the two result arrays at the new
    hidden and cell states of the launch arguments, and the arguments unchanged. -/
theorem run : θ_run defs (onTc (τ := τ) (main (F := Ideal))) ⟨m, fun _ => 0, ρ⟩ fun r => ∀ c : Dev nD,
      r.2.mem ((c : Thread nD τ).loc main_v35_0) = (args m c).hArr
      ∧ r.2.mem ((c : Thread nD τ).loc main_v35_1) = (args m c).cArr
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨((h c).1 25).trans (final_h m c),
      ((h c).1 26).trans (final_c m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c)⟩)
    (run_main m ρ)

end Cert.Lstm.Flush

end
-- ==== Proof.lean ====
/-
  One step of a long short-term memory cell whose gates also look at the previous cell state, over a batch of 8192 rows
  and 2048 features: the tiled kernel against the plain array program.

  Both programs compute, at every entry (r, j),
      gate a b c = logistic (a + b + tanh c),        dense v W b = Σ_k v[r,k] · W[j,k] + b[j],
      c' = gate (x·Wxf) (h·Whf) (c·Wcf) · c[r,j] + gate (x·Wxi) (h·Whi) (c·Wci) · tanh (x·Wxg + h·Whg),
      h' = gate (x·Wxo) (h·Who) (c·Wco) · tanh c'
  (each product with its bias added), with the additions and products in the same order. The kernel works tile by
  tile: a 16 × 8 grid of 512 × 256 output tiles, each from a 512-row block of x, h and c and a 256-column block of each
  transposed weight, the previous cell state's tile cut from the c block at the tile's columns; its narrower float
  format for the products is the identity on the extended reals, its matrix products into a zero accumulator are the
  same sums over k as the array program's contractions, and its logistic function is, by definition, the array
  program's 1 / (1 + e^(-s)). No law of arithmetic beyond that is used, so the inputs' finiteness is never opened.

  Cell.lean states the step; Tile.lean and Entry.lean read the kernel body's arithmetic at an entry; Staged.lean says
  which block of which argument each window stages at a grid point; Flush.lean reads the two result arrays off the
  kernel's run; RefCell.lean reads the array program's stages. Here the five claims are assembled: the three runs with
  their arguments unchanged, the idealization (nothing was rewritten), and the equality of the results.
-/
import proofs.«105667_j80350248173768_2_alg».proof.Defs
import proofs.«105667_j80350248173768_2_alg».proof.Proof.Gen.Kernel
import proofs.«105667_j80350248173768_2_alg».proof.Proof.Gen.KernelIdeal
import proofs.«105667_j80350248173768_2_alg».proof.Proof.Gen.ReferenceIdeal
import proofs.«105667_j80350248173768_2_alg».proof.Proof.Gen.Pre_finite_inputs
import proofs.«105667_j80350248173768_2_alg».proof.Proof.Gen.ReferenceIdeal.Run
import proofs.«105667_j80350248173768_2_alg».proof.Proof.Gen.ReferenceIdeal.Read
import proofs.«105667_j80350248173768_2_alg».proof.Proof.KernelFrame
import proofs.«105667_j80350248173768_2_alg».proof.Proof.KernelIdealFrame
import proofs.«105667_j80350248173768_2_alg».proof.Proof.RefCell
import proofs.«105667_j80350248173768_2_alg».proof.Proof.Flush
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The array program runs and leaves its arguments as they were: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten on the way to the idealized kernel. -/
theorem preserves : Cert.preserves_Kernel_KernelIdeal := trivial

/-- From memories that agree on the arguments, the idealized kernel's two result arrays and the array program's are
    the new hidden and cell states of those arguments. -/
theorem algebraic : Cert.algebraic_KernelIdeal_ReferenceIdeal := by
  intro m ρ m' ρ' _ hagree
  refine ⟨fun c => (Cert.Lstm.Staged.args m c).hArr, fun c => (Cert.Lstm.Staged.args m c).cArr,
    Cert.Lstm.Flush.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18, e19, e20, e21, e22, e23, e24⟩ := hagree c
  refine ⟨?_, ?_, (h c).2.2⟩
  · exact ((h c).1.trans (Cert.ReferenceIdeal.Read.val_main_v88_eq m' c)).trans
      (Cert.Lstm.Ref.hnew_eq_of (A := Cert.Lstm.Staged.args m c) e0 e1 e2 e3 e4 e5 e6 e7 e8 e9 e10 e11 e12 e13 e14 e15 e16 e17 e18 e19 e20 e21 e22 e23 e24)
  · exact ((h c).2.1.trans (Cert.ReferenceIdeal.Read.val_main_v68_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22))
      (m' ((c.tc : Thread Cert.ReferenceIdeal.nD Cert.ReferenceIdeal.τ).loc Cert.ReferenceIdeal.main_arg23))
      (m' ((c.tc : Thread Cert.ReferenceIdeal.nD Cert.ReferenceIdeal.τ).loc Cert.ReferenceIdeal.main_arg24)))).trans
      (Cert.Lstm.Ref.cnew_eq_of (A := Cert.Lstm.Staged.args m c) e0 e1 e2 e3 e4 e5 e6 e7 e8 e9 e10 e11 e12 e13 e14 e15 e16 e17 e18 e19 e20 e21 e22 e23 e24)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
